-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S65536 : Shape := ⟨1, ![65536]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel

variable [Facts]

def fn {F : FTy → Type} [FloatOps F] (main_arg0 : FVec F S65536x3 .f32) (main_arg1 : FVec F S65536x3 .f32) (main_arg2 : IVec S65536 32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S65536x3 .f32 := Host.absf main_arg1
  let main_cst_0 : FVec F S_ .f32 := constant S_ .f32 0x7F800000#32
  let main_v5 : FVec F S65536x3 .f32 := broadcastInDim S65536x3 ![] bcast_S_S65536x3 main_cst_0
  let main_v6 : IVec S65536x3 1 := cmpf .olt main_v4 main_v5
  let main_c_1 : IVec S_ 1 := constantI S_ 1 1#1
  let main_v7 : IVec S_ 1 := (fun x v => Host.reduce IntOp.andi x v reducesTo_S65536x3_S_d0_1 h_S_) main_v6 main_c_1
  let main_v8 : IVec S_ 1 := andi main_v3 main_v7
  main_v8
-- ==== Kernel.lean ====
abbrev S65536x3 : Shape := ⟨2, ![65536, 3]⟩
abbrev S65536 : Shape := ⟨1, ![65536]⟩
abbrev S16x4096x3 : Shape := ⟨3, ![16, 4096, 3]⟩
abbrev S16x4096x1 : Shape := ⟨3, ![16, 4096, 1]⟩
abbrev S16x1x128 : Shape := ⟨3, ![16, 1, 128]⟩
abbrev S1x512x3 : Shape := ⟨3, ![1, 512, 3]⟩
abbrev S1x4096x3 : Shape := ⟨3, ![1, 4096, 3]⟩
abbrev S1x512x1 : Shape := ⟨3, ![1, 512, 1]⟩
abbrev S1x1x128 : Shape := ⟨3, ![1, 1, 128]⟩
abbrev S1x4096 : Shape := ⟨2, ![1, 4096]⟩
abbrev S1x1 : Shape := ⟨2, ![1, 1]⟩
abbrev S512x3 : Shape := ⟨2, ![512, 3]⟩
abbrev S4096x3 : Shape := ⟨2, ![4096, 3]⟩
abbrev S512 : Shape := ⟨1, ![512]⟩
abbrev S512x1 : Shape := ⟨2, ![512, 1]⟩
abbrev S4096 : Shape := ⟨1, ![4096]⟩
abbrev S3x4096 : Shape := ⟨2, ![3, 4096]⟩
abbrev S512x4096 : Shape := ⟨2, ![512, 4096]⟩
abbrev S1 : Shape := ⟨1, ![1]⟩
abbrev S1x128 : Shape := ⟨2, ![1, 128]⟩
abbrev S16x1x1 : Shape := ⟨3, ![16, 1, 1]⟩
abbrev S16x1 : Shape := ⟨2, ![16, 1]⟩

abbrev nBuf : Space → Nat
  | .hbm => 10
  | .vmem => 10
  | .smem => 0
  | _ => 0

abbrev bufTy : (tb : Table) → Fin (tcTables nBuf tb) → BufTy
  | .hbm, ⟨0, _⟩ => ⟨S65536x3, .f32⟩
  | .hbm, ⟨1, _⟩ => ⟨S65536x3, .f32⟩
  | .hbm, ⟨2, _⟩ => ⟨S65536, .i32⟩
  | .hbm, ⟨3, _⟩ => ⟨S16x4096x3, .f32⟩
  | .hbm, ⟨4, _⟩ => ⟨S16x4096x3, .f32⟩
  | .hbm, ⟨5, _⟩ => ⟨S16x4096x1, .f32⟩
  | .hbm, ⟨6, _⟩ => ⟨S16x1x128, .f32⟩
  | .hbm, ⟨7, _⟩ => ⟨S65536, .f32⟩
  | .hbm, ⟨8, _⟩ => ⟨S16x1x1, .f32⟩
  | .hbm, ⟨9, _⟩ => ⟨S16x1, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S1x512x1, .f32⟩
  | .local _ .vmem, ⟨5, _⟩ => ⟨S1x512x1, .f32⟩
  | .local _ .vmem, ⟨6, _⟩ => ⟨S1x1x128, .f32⟩
  | .local _ .vmem, ⟨7, _⟩ => ⟨S1x1x128, .f32⟩
  | .local _ .vmem, ⟨8, _⟩ => ⟨S1x4096, .f32⟩
  | .local _ .vmem, ⟨9, _⟩ => ⟨S1x1, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_24 : BitVec 32 := 0#32
  let v45 : BitVec 1 := Scalar.cmpi .ne v44 c0_i32_24
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S65536x3_S16x4096x3 : S65536x3.ShapeCasts S16x4096x3
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S512x3_S512 : S512x3.Reduces [1] S512
  shapeCasts_S512_S512x1 : S512.ShapeCasts S512x1
  reduces_S4096x3_S4096 : S4096x3.Reduces [1] S4096
  transposes_S4096x3_p1_0_S3x4096 : S4096x3.Transposes [1, 0] S3x4096
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x1_S1 : S512x1.Reduces [0] S1
  shapeCasts_S1_S1x1 : S1.ShapeCasts S1x1
  reduces_S512x4096_S4096 : S512x4096.Reduces [0] S4096
  reduces_S1x4096_S1 : S1x4096.Reduces [1] S1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S16x4096x1_S65536 : S16x4096x1.ShapeCasts S65536
  slices_S16x1x128_S16x1x1_0_0_0 : S16x1x128.Slices ![0, 0, 0] S16x1x1
  shapeCasts_S16x1x1_S16x1 : S16x1x1.ShapeCasts S16x1
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S16x4096x3.size a
  hwx0_0 : ∀ i : grid0.Coords, EltTy.bits .f32 = 32 ∨ (Rect.block (s := S16x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x4096x1.size a
  hwx0_2 : ∀ i : grid0.Coords, EltTy.bits .f32 = 32 ∨ (Rect.block (s := S16x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_v0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x3 : Shape := ⟨2, ![65536, 3]⟩
abbrev S65536 : Shape := ⟨1, ![65536]⟩
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩
abbrev S16x1 : Shape := ⟨2, ![16, 1]⟩

abbrev nBuf : Space → Nat
  | .hbm => 45
  | .vmem => 0
  | .smem => 0
  | _ => 0

abbrev bufTy : (tb : Table) → Fin (tcTables nBuf tb) → BufTy
  | .hbm, ⟨0, _⟩ => ⟨S65536x3, .f32⟩
  | .hbm, ⟨1, _⟩ => ⟨S65536x3, .f32⟩
  | .hbm, ⟨2, _⟩ => ⟨S65536, .i32⟩
  | .hbm, ⟨3, _⟩ => ⟨S16x4096x3, .f32⟩
  | .hbm, ⟨4, _⟩ => ⟨S16x4096x3, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x3, .f32⟩
  | .hbm, ⟨9, _⟩ => ⟨S_, .f32⟩
  | .hbm, ⟨10, _⟩ => ⟨S16x4096, .f32⟩
  | .hbm, ⟨11, _⟩ => ⟨S16x4096x4096, .f32⟩
  | .hbm, ⟨12, _⟩ => ⟨S16x4096x1, .f32⟩
  | .hbm, ⟨13, _⟩ => ⟨S16x1x4096, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16x4096, .f32⟩
  | .hbm, ⟨29, _⟩ => ⟨S_, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16x1, .f32⟩
  | .hbm, ⟨44, _⟩ => ⟨S65536, .f32⟩
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  shapeCasts_S65536x3_S16x4096x3 : S65536x3.ShapeCasts S16x4096x3
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  bcast_S16_S16x1_0 : S16.BroadcastsInDim S16x1 (![0] : Fin 1 → Fin S16x1.rank)
  shapeCasts_S16x4096_S65536 : S16x4096.ShapeCasts S65536
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Spec.lean ====
/-
  The Chamfer coherence of two clouds of 16 samples × 4096 points in three coordinates, over the
  extended reals, index by index.

  Sample `b`'s point `p` is row `4096 b + p` of a [65536, 3] array. With
  `|x|² = Σ_d x_d²` and `⟨x, y⟩ = Σ_d x_d y_d`, the distance of point `p` of the first cloud to point `q`
  of the second is `dist b p q = √(max ((|x_p|² + |y_q|²) − 2 ⟨x_p, y_q⟩) 0)`; the forward distance of `p`
  is its minimum over `q`, the backward distance of `q` its minimum over `p` (both taken from `+∞`), and
  the coherence of sample `b` is `(Σ_p fwd / 4096 + Σ_q bwd / 4096) · ½`.
  The float literals stay the words the programs print (`two`, `zer`, `inf`, `n4096`, `half`):
  the same word stands on both sides of every equation below, so none is evaluated.

  Also here: the two regroupings by which 8 tiles of 512 points make up the 4096 — a sum of tile sums,
  and a minimum of tile minima (through the universal property `c ≤ min …`, valid from any start value).
-/
import Mathlib.Data.Finset.Fold
import Mathlib.Algebra.BigOperators.Fin
import Idealize.ShloMosaic.PureOps.Ideal.Laws
import Idealize.ShloMosaic.Lib.ValueIdx

noncomputable section

namespace Cert.Chamfer

open Idealize.ShloMosaic Idealize.ShloMosaic.ValueIdx
open scoped BigOperators

/-- A cloud: one row of three coordinates per point, 16 · 4096 rows. -/
abbrev Pts := (⟨2, ![65536, 3]⟩ : Shape).Idx → EReal

abbrev two : EReal := Ideal.ofBits .f32 0x40000000#32
abbrev zer : EReal := Ideal.ofBits .f32 0x00000000#32
abbrev inf : EReal := Ideal.ofBits .f32 0x7F800000#32
abbrev n4096 : EReal := Ideal.ofBits .f32 0x45800000#32
abbrev half : EReal := Ideal.ofBits .f32 0x3F000000#32

/-- The row of sample `b`'s point `p`. -/
def row (b : Fin 16) (p : Fin 4096) : Fin 65536 :=
  ⟨b.val * 4096 + p.val, by have := b.isLt; have := p.isLt; omega⟩

theorem row_val (b : Fin 16) (p : Fin 4096) : (row b p).val = b.val * 4096 + p.val := rfl

/-- `|x|²` of sample `b`'s point `p`. -/
def sqn (X : Pts) (b : Fin 16) (p : Fin 4096) : EReal :=
  ∑ d : Fin 3, X (ix2 (row b p) d) * X (ix2 (row b p) d)

/-- `⟨x_p, y_q⟩` within sample `b`. -/
def dotp (P R : Pts) (b : Fin 16) (p q : Fin 4096) : EReal :=
  ∑ d : Fin 3, P (ix2 (row b p) d) * R (ix2 (row b q) d)

/-- The distance between point `p` of `P` and point `q` of `R`, in sample `b`. -/
def dist (P R : Pts) (b : Fin 16) (p q : Fin 4096) : EReal :=
  Ideal.sqrt (max ((sqn P b p + sqn R b q) - two * dotp P R b p q) zer)

/-- Forward: the nearest point of `R` to point `p` of `P`. -/
def fwd (P R : Pts) (b : Fin 16) (p : Fin 4096) : EReal :=
  (Finset.univ : Finset (Fin 4096)).fold min inf (fun q => dist P R b p q)

/-- Backward: the nearest point of `P` to point `q` of `R`. -/
def bwd (P R : Pts) (b : Fin 16) (q : Fin 4096) : EReal :=
  (Finset.univ : Finset (Fin 4096)).fold min inf (fun p => dist P R b p q)

/-- The coherence of sample `b`: the mean forward plus the mean backward distance, halved. -/
def coh (P R : Pts) (b : Fin 16) : EReal :=
  (Ideal.div (∑ p : Fin 4096, fwd P R b p) n4096 + Ideal.div (∑ q : Fin 4096, bwd P R b q) n4096) * half

/-- The first result, [16, 1]: each sample's coherence. -/
def scalarOut (P R : Pts) : (⟨2, ![16, 1]⟩ : Shape).Idx → EReal := fun i => coh P R (i 0)

/-- The second result, [65536]: entry `4096 b + p` is the forward distance of sample `b`'s point `p`. -/
def spatialOut (P R : Pts) : (⟨1, ![65536]⟩ : Shape).Idx → EReal := fun i =>
  fwd P R ⟨(i 0).val / 4096, by have h : (i 0).val < 65536 := (i 0).isLt; omega⟩ ⟨(i 0).val % 4096, Nat.mod_lt _ (by decide)⟩

/-! ## Eight tiles of 512 make 4096 -/

/-- Point `j` of tile `k`. -/
def tile (k : Fin 8) (j : Fin 512) : Fin 4096 := ⟨512 * k.val + j.val, by have := k.isLt; have := j.isLt; omega⟩

theorem tile_val (k : Fin 8) (j : Fin 512) : (tile k j).val = 512 * k.val + j.val := rfl

/-- Every point lies in a tile. -/
theorem eq_tile (p : Fin 4096) : p = tile ⟨p.val / 512, by have := p.isLt; omega⟩ ⟨p.val % 512, Nat.mod_lt _ (by decide)⟩ :=
  Fin.ext (by rw [tile_val]; exact (Nat.div_add_mod _ _).symm)

/-- A sum over the 4096 points is the sum of the eight tile sums. -/
theorem sum_tiles {M : Type*} [AddCommMonoid M] (f : Fin 4096 → M) :
    ∑ k : Fin 8, ∑ j : Fin 512, f (tile k j) = ∑ p : Fin 4096, f p := by
  rw [← Fintype.sum_prod_type']
  refine Fintype.sum_equiv (finProdFinEquiv (m := 8) (n := 512)) _ _ fun x => ?_
  exact congrArg f (Fin.ext (by simp [tile, finProdFinEquiv]; omega))

/-- `c` is below the minimum (from any start value `t`) over the 4096 points iff it is below `t` and
    below every point of every tile. -/
theorem le_fold_min_tiles (t : EReal) (f : Fin 4096 → EReal) (c : EReal) :
    c ≤ (Finset.univ : Finset (Fin 4096)).fold min t f ↔ c ≤ t ∧ ∀ (k : Fin 8) (j : Fin 512), c ≤ f (tile k j) := by
  rw [Finset.le_fold_min]
  refine and_congr Iff.rfl ⟨fun h k j => h _ (Finset.mem_univ _), fun h p _ => ?_⟩
  rw [eq_tile p]; exact h _ _

end Cert.Chamfer

end
-- ==== Proof.RefIsSpec.lean ====
/-
  The reference program computes the specification.

  Stage by stage: the regrouped arrays read row `4096 b + p`; the two sums of squares and the inner product are
  the three-term sums `|x_p|²`, `|y_q|²`, `⟨x_p, y_q⟩` (each host sum is "zero word + Σ", and the zero word is 0);
  the distance stage is `√(max ((|x_p|² + |y_q|²) − 2 ⟨x_p, y_q⟩) 0)`; the two minimum reductions are folds of `min`
  from `+∞` over the third, resp. second, axis; the means, their sum and the halving give each sample's coherence, and
  the flattened forward minima give the second result, entry `4096 b + p` read at `(i / 4096, i % 4096)`.
-/
import proofs.«155821_j38989713113333_1_alg».proof.Proof.Gen.ReferenceIdeal.Read
import proofs.«155821_j38989713113333_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.Chamfer.Ref

open Idealize.ShloMosaic Idealize.ShloMosaic.ValueIdx Cert.ReferenceIdeal Cert.ReferenceIdeal.Read Cert.Chamfer
open scoped BigOperators

/-- Row `4096 b + p`, coordinate `d`, is entry `(b, p, d)` of the array regrouped as [16, 4096, 3]. -/
theorem idx0_at (b : Fin 16) (p : Fin 4096) (d : Fin 3) : idx_main_v0 (ix3 b p d) = ix2 (row b p) d :=
  funext fun a => Fin.ext (by
    have hd := d.isLt
    match a with
    | ⟨0, _⟩ => show ((b.val * 4096 + p.val) * 3 + d.val) / 3 = (row b p).val; rw [row_val]; omega
    | ⟨1, _⟩ => show ((b.val * 4096 + p.val) * 3 + d.val) % 3 = d.val; omega)

theorem v0_at (P : Pts) (b : Fin 16) (p : Fin 4096) (d : Fin 3) :
    val_main_v0 (F := Ideal) P (ix3 b p d) = P (ix2 (row b p) d) := by
  rw [val_main_v0_apply, idx0_at]

theorem v1_at (R : Pts) (b : Fin 16) (p : Fin 4096) (d : Fin 3) :
    val_main_v1 (F := Ideal) R (ix3 b p d) = R (ix2 (row b p) d) := by
  rw [val_main_v1_apply]; exact congrArg R (idx0_at b p d)

theorem idx3_at (b : Fin 16) (p : Fin 4096) (k : Fin 3) : idx_main_v3 (ix2 b p) k = ix3 b p k :=
  funext fun a => by match a with | ⟨0, _⟩ => rfl | ⟨1, _⟩ => rfl | ⟨2, _⟩ => rfl

theorem v3_at (P : Pts) (b : Fin 16) (p : Fin 4096) : val_main_v3 (F := Ideal) P (ix2 b p) = sqn P b p := by
  rw [val_main_v3_apply, val_main_cst_apply, Ideal.ofBits_def, Ideal.ofBits_zero_f32, zero_add]
  refine Finset.sum_congr rfl fun k _ => ?_
  rw [idx3_at, val_main_v2_apply, v0_at, Ideal.mulf_def]

theorem v5_at (R : Pts) (b : Fin 16) (q : Fin 4096) : val_main_v5 (F := Ideal) R (ix2 b q) = sqn R b q := by
  rw [val_main_v5_apply, val_main_cst_0_apply, Ideal.ofBits_def, Ideal.ofBits_zero_f32, zero_add]
  refine Finset.sum_congr rfl fun k _ => ?_
  have e : idx_main_v5 (ix2 b q) k = ix3 b q k :=
    funext fun a => by match a with | ⟨0, _⟩ => rfl | ⟨1, _⟩ => rfl | ⟨2, _⟩ => rfl
  rw [e, val_main_v4_apply, v1_at, Ideal.mulf_def]

theorem v6_at (P R : Pts) (b : Fin 16) (p q : Fin 4096) :
    val_main_v6 (F := Ideal) P R (ix3 b p q) = dotp P R b p q := by
  rw [val_main_v6_apply]
  refine Finset.sum_congr rfl fun k _ => ?_
  have el : lidx_main_v6 (ix3 b p q) k = ix3 b p k :=
    funext fun a => by match a with | ⟨0, _⟩ => rfl | ⟨1, _⟩ => rfl | ⟨2, _⟩ => rfl
  have er : ridx_main_v6 (ix3 b p q) k = ix3 b q k :=
    funext fun a => by match a with | ⟨0, _⟩ => rfl | ⟨1, _⟩ => rfl | ⟨2, _⟩ => rfl
  rw [el, er, v0_at, v1_at]

theorem v9_at (P : Pts) (b : Fin 16) (p q : Fin 4096) :
    val_main_v9 (F := Ideal) P (ix3 b p q) = sqn P b p := by
  rw [val_main_v9_apply, val_main_v7_apply]
  have e : idx_main_v7 (idx_main_v9 (ix3 b p q)) = ix2 b p :=
    funext fun a => by match a with | ⟨0, _⟩ => rfl | ⟨1, _⟩ => rfl
  rw [e, v3_at]

theorem v10_at (R : Pts) (b : Fin 16) (p q : Fin 4096) :
    val_main_v10 (F := Ideal) R (ix3 b p q) = sqn R b q := by
  rw [val_main_v10_apply, val_main_v8_apply]
  have e : idx_main_v8 (idx_main_v10 (ix3 b p q)) = ix2 b q :=
    funext fun a => by match a with | ⟨0, _⟩ => rfl | ⟨1, _⟩ => rfl
  rw [e, v5_at]

/-- The distance stage at `(b, p, q)`. -/
theorem v17_at (P R : Pts) (b : Fin 16) (p q : Fin 4096) :
    val_main_v17 (F := Ideal) P R (ix3 b p q) = dist P R b p q := by
  rw [val_main_v17_apply, val_main_v16_apply, val_main_v14_apply, val_main_v11_apply, v9_at, v10_at,
    val_main_v13_apply, val_main_v12_apply, val_main_cst_1_apply, v6_at, val_main_v15_apply, val_main_cst_2_apply]
  rfl

theorem red_d2 : S16x4096x4096.Reduces [2] S16x4096 := by decide
theorem red_d1 : S16x4096x4096.Reduces [1] S16x4096 := by decide

/-- The minimum over the third axis at `(b, p)` is the forward distance. -/
theorem v18_at (P R : Pts) (b : Fin 16) (p : Fin 4096) :
    val_main_v18 (F := Ideal) P R (ix2 b p) = fwd P R b p := by
  unfold val_main_v18 fwd
  refine (Host.reduce_eq_fold_single (FloatOps.minimumf (F := Ideal) (φ := .f32)) _ _
    Gen.reducesTo_S16x4096x4096_S16x4096_d2 red_d2 Gen.h_S_ (ix2 b p)).trans ?_
  have hf : (val_main_v17 (F := Ideal) P R ∘ red_d2.lift (ix2 b p)) = fun q : Fin 4096 => dist P R b p q :=
    funext fun (k : Fin 4096) => by
      have e : red_d2.lift (ix2 b p) k = ix3 b p k :=
        funext fun a => Fin.ext (by match a with | ⟨0, _⟩ => rfl | ⟨1, _⟩ => rfl | ⟨2, _⟩ => rfl)
      show val_main_v17 (F := Ideal) P R (red_d2.lift (ix2 b p) k) = _
      rw [e, v17_at]
  exact congrArg (fun f => (Finset.univ : Finset (Fin 4096)).fold min inf f) hf

/-- The minimum over the second axis at `(b, q)` is the backward distance. -/
theorem v19_at (P R : Pts) (b : Fin 16) (q : Fin 4096) :
    val_main_v19 (F := Ideal) P R (ix2 b q) = bwd P R b q := by
  unfold val_main_v19 bwd
  refine (Host.reduce_eq_fold_single (FloatOps.minimumf (F := Ideal) (φ := .f32)) _ _
    Gen.reducesTo_S16x4096x4096_S16x4096_d1 red_d1 Gen.h_S_ (ix2 b q)).trans ?_
  have hf : (val_main_v17 (F := Ideal) P R ∘ red_d1.lift (ix2 b q)) = fun p : Fin 4096 => dist P R b p q :=
    funext fun (k : Fin 4096) => by
      have e : red_d1.lift (ix2 b q) k = ix3 b k q :=
        funext fun a => Fin.ext (by match a with | ⟨0, _⟩ => rfl | ⟨1, _⟩ => rfl | ⟨2, _⟩ => rfl)
      show val_main_v17 (F := Ideal) P R (red_d1.lift (ix2 b q) k) = _
      rw [e, v17_at]
  exact congrArg (fun f => (Finset.univ : Finset (Fin 4096)).fold min inf f) hf

theorem idx20_at (b : Fin 16) (k : Fin 4096) : idx_main_v20 (ix1 b) k = ix2 b k :=
  funext fun a => by match a with | ⟨0, _⟩ => rfl | ⟨1, _⟩ => rfl

/-- Each sample's halved sum of the two means. -/
theorem v28_at (P R : Pts) (b : Fin 16) : val_main_v28 (F := Ideal) P R (ix1 b) = coh P R b := by
  rw [val_main_v28_apply, val_main_v26_apply, val_main_v22_apply, val_main_v25_apply, val_main_v20_apply,
    val_main_v23_apply, val_main_v21_apply, val_main_v24_apply, val_main_v27_apply, val_main_cst_5_apply,
    val_main_cst_6_apply, val_main_cst_7_apply, val_main_cst_8_apply, val_main_cst_9_apply]
  simp only [Ideal.ofBits_def, Ideal.ofBits_zero_f32, zero_add, Ideal.mulf_def, Ideal.addf_def, Ideal.hostDivf_def]
  have e1 : ∑ k : Fin 4096, val_main_v18 (F := Ideal) P R (idx_main_v20 (ix1 b) k) = ∑ p : Fin 4096, fwd P R b p :=
    Finset.sum_congr rfl fun k _ => by rw [idx20_at, v18_at]
  have e2 : ∑ k : Fin 4096, val_main_v19 (F := Ideal) P R (idx_main_v23 (ix1 b) k) = ∑ q : Fin 4096, bwd P R b q :=
    Finset.sum_congr rfl fun k _ => by
      have e : idx_main_v23 (ix1 b) k = ix2 b k := funext fun a => by match a with | ⟨0, _⟩ => rfl | ⟨1, _⟩ => rfl
      rw [e, v19_at]
  rw [e1, e2]
  rfl

theorem ref_scalar (P R : Pts) : val_main_v29 (F := Ideal) P R = scalarOut P R := by
  funext i
  rw [val_main_v29_apply]
  have e : idx_main_v29 i = ix1 (n := 16) (i 0) := funext fun a => by match a with | ⟨0, _⟩ => rfl
  exact (congrArg (val_main_v28 (F := Ideal) P R) e).trans (v28_at P R (i 0))

theorem ref_spatial (P R : Pts) : val_main_v30 (F := Ideal) P R = spatialOut P R := by
  funext i
  rw [val_main_v30_apply]
  have e : idx_main_v30 i = ix2 (⟨(i 0).val / 4096, by have h : (i 0).val < 65536 := (i 0).isLt; omega⟩ : Fin 16)
      (⟨(i 0).val % 4096, Nat.mod_lt _ (by decide)⟩ : Fin 4096) :=
    funext fun a => by match a with | ⟨0, _⟩ => rfl | ⟨1, _⟩ => rfl
  rw [e, v18_at]
  rfl

end Cert.Chamfer.Ref

end
-- ==== Proof.Blocks.lean ====
/-
  What the kernel's windows read, in the specification's coordinates.

  The grid has 16 · 8 points; point `t` works on sample `t / 8` and on tile `t % 8` of its 4096 points.
  The two clouds reach the kernel reshaped [65536, 3] → [16, 4096, 3] (row `4096 b + p` becomes point `p` of
  sample `b`). At point `t` the first window holds the 512 points of tile `t % 8` of sample `t / 8` of the
  first cloud, the second window all 4096 points of that sample of the second cloud.
-/
import proofs.«155821_j38989713113333_1_alg».proof.Proof.Gen.KernelIdeal.Frame
import proofs.«155821_j38989713113333_1_alg».proof.Proof.Spec
import Idealize.ShloMosaic.Lib.Pipeline.Value
import Idealize.ShloMosaic.Lib.StableHlo.Run
import Idealize.ShloMosaic.Lib.ValueIdx

set_option maxRecDepth 16384

noncomputable section

namespace Cert.Chamfer.Blocks

open Idealize.ShloMosaic Idealize.ShloMosaic.TcCoe Idealize.SL.Sem Idealize.ShloMosaic.ValueIdx
open Cert.KernelIdeal Cert.KernelIdeal.Gen Cert.Chamfer

variable (m : (ℓ : Loc nD τ sig) → Buf (Elt Ideal) ℓ)

/-- The two clouds as the program is launched with them. -/
abbrev cloudP (c : Dev nD) : Pts := m ((c : Thread nD τ).loc main_arg0)
abbrev cloudR (c : Dev nD) : Pts := m ((c : Thread nD τ).loc main_arg1)

theorem t_lt (t : Fin cfg0.N) : t.val < 128 := lt_of_lt_of_eq t.isLt (show cfg0.N = 128 from N_0)

/-- The sample and the tile grid point `t` works on. -/
def sampleOf (t : Fin cfg0.N) : Fin 16 := ⟨t.val / 8, by have := t_lt t; omega⟩
def tileOf (t : Fin cfg0.N) : Fin 8 := ⟨t.val % 8, Nat.mod_lt _ (by decide)⟩

theorem sampleOf_val (t : Fin cfg0.N) : (sampleOf t).val = t.val / 8 := rfl
theorem tileOf_val (t : Fin cfg0.N) : (tileOf t).val = t.val % 8 := rfl

/-- The four windows' block indices at every point, decided over the grid: the sample on the leading axis, the tile on the
    second axis of the two windows that move with it, zero elsewhere. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The first cloud as the region finds it: the launched array reshaped to [16, 4096, 3]. -/
theorem V_main_v0 (c : Dev nD) :
    (V m c main_v0 : S16x4096x3.Idx → EReal) = shapeCast S16x4096x3 (cloudP m c) Facts₀.shapeCasts_S65536x3_S16x4096x3 := by
  show StableHlo.after hostOps0 (fun b => m (c, b)) (Proc.devRef .tc main_v0) = _
  after_results
  rfl

/-- The second cloud likewise. -/
theorem V_main_v1 (c : Dev nD) :
    (V m c main_v1 : S16x4096x3.Idx → EReal) = shapeCast S16x4096x3 (cloudR m c) Facts₀.shapeCasts_S65536x3_S16x4096x3 := by
  show StableHlo.after hostOps0 (fun b => m (c, b)) (Proc.devRef .tc main_v1) = _
  after_results
  rfl

/-- Coordinate `d` of point `p` of sample `b` is entry `(4096 b + p, d)` of the launched array. -/
theorem V_main_v0_apply (c : Dev nD) (b : Fin 16) (p : Fin 4096) (d : Fin 3) :
    (V m c main_v0 : S16x4096x3.Idx → EReal) (ix3 b p d) = cloudP m c (ix2 (row b p) d) := by
  rw [V_main_v0]
  exact shapeCast_apply _ _ _ _ (by rw [Shape.rowMajor_val_two, Shape.rowMajor_val_three]; rfl)

theorem V_main_v1_apply (c : Dev nD) (b : Fin 16) (p : Fin 4096) (d : Fin 3) :
    (V m c main_v1 : S16x4096x3.Idx → EReal) (ix3 b p d) = cloudR m c (ix2 (row b p) d) := by
  rw [V_main_v1]
  exact shapeCast_apply _ _ _ _ (by rw [Shape.rowMajor_val_two, Shape.rowMajor_val_three]; rfl)

/-- The first window at point `t`: point `j` of tile `t % 8` of sample `t / 8` of the first cloud. -/
theorem iblk0_apply (c : Dev nD) (t : Fin cfg0.N) (j : Fin 512) (d : Fin 3) :
    (iblk m c 0 t : S1x512x3.Idx → EReal) (ix3 0 j d) = cloudP m c (ix2 (row (sampleOf t) (tile (tileOf t) j)) d) := by
  obtain ⟨e0, e1, e2, -⟩ := idx_facts t
  unfold iblk
  rw [View.read_apply]
  show (V m c main_v0 : S16x4096x3.Idx → EReal) (((cfg0.win 0).blk t).view.emb (ix3 (0 : Fin 1) j d)) = _
  have hemb : ((cfg0.win 0).blk t).view.emb (ix3 (0 : Fin 1) j d) = ix3 (sampleOf t) (tile (tileOf t) j) d := by
    funext a; apply Fin.ext
    match a with
    | ⟨0, _⟩ => show win0_0.index t (0 : Fin 3) * 1 + 1 * 0 = t.val / 8; omega
    | ⟨1, _⟩ => show win0_0.index t (1 : Fin 3) * 512 + 1 * j.val = 512 * (t.val % 8) + j.val; omega
    | ⟨2, _⟩ => show win0_0.index t (2 : Fin 3) * 3 + 1 * d.val = d.val; omega
  rw [hemb, V_main_v0_apply]

/-- The second window at point `t`: point `q` of sample `t / 8` of the second cloud. -/
theorem iblk1_apply (c : Dev nD) (t : Fin cfg0.N) (q : Fin 4096) (d : Fin 3) :
    (iblk m c 1 t : S1x4096x3.Idx → EReal) (ix3 0 q d) = cloudR m c (ix2 (row (sampleOf t) q) d) := by
  obtain ⟨-, -, -, e0, e1, e2, -⟩ := idx_facts t
  unfold iblk
  rw [View.read_apply]
  show (V m c main_v1 : S16x4096x3.Idx → EReal) (((cfg0.win 1).blk t).view.emb (ix3 (0 : Fin 1) q d)) = _
  have hemb : ((cfg0.win 1).blk t).view.emb (ix3 (0 : Fin 1) q d) = ix3 (sampleOf t) q d := by
    funext a; apply Fin.ext
    match a with
    | ⟨0, _⟩ => show win0_1.index t (0 : Fin 3) * 1 + 1 * 0 = t.val / 8; omega
    | ⟨1, _⟩ => show win0_1.index t (1 : Fin 3) * 4096 + 1 * q.val = q.val; omega
    | ⟨2, _⟩ => show win0_1.index t (2 : Fin 3) * 3 + 1 * d.val = d.val; omega
  rw [hemb, V_main_v1_apply]

end Cert.Chamfer.Blocks

end
-- ==== Proof.Regroup.lean ====
/-
  A running total and a running minimum taken tile by tile are the total and the minimum over all 4096 points.

  The kernel visits the eight tiles of a sample in order, adding each tile's sum to a running total that starts at a
  value `z`, and folding each tile's minimum into a running minimum that starts at a value `t`. After tile `K` the
  total is `z + Σ_{k ≤ K} (tile k's sum)`; the running minimum `x` is characterised by what lies below it:
  `c ≤ x ↔ c ≤ t ∧ c ≤ every entry of the tiles 0 … K` (`BelowTiles`). After the eighth tile these are
  `z + Σ_p f p` and `min_p (t, f p)`: addition of extended reals is commutative and associative, and an
  extended real is determined by the set of values below it.
-/
import proofs.«155821_j38989713113333_1_alg».proof.Proof.Spec

noncomputable section

namespace Cert.Chamfer

open scoped BigOperators

/-! ## Sums -/

/-- The sum of `f` over tile `k` (zero past the eighth tile). -/
def tileSum (f : Fin 4096 → EReal) (k : ℕ) : EReal :=
  if h : k < 8 then ∑ j : Fin 512, f (tile ⟨k, h⟩ j) else 0

theorem tileSum_of_lt (f : Fin 4096 → EReal) (k : Fin 8) : tileSum f k.val = ∑ j : Fin 512, f (tile k j) := by
  unfold tileSum; rw [dif_pos k.isLt]

/-- The eight tile sums add up to the sum over all points. -/
theorem sum_range_tileSum (f : Fin 4096 → EReal) : ∑ k ∈ Finset.range 8, tileSum f k = ∑ p : Fin 4096, f p := by
  rw [Finset.sum_range (fun k => tileSum f k), ← sum_tiles f]
  exact Finset.sum_congr rfl fun k _ => tileSum_of_lt f k

/-- One more tile added to the running total. -/
theorem total_succ (z : EReal) (f : Fin 4096 → EReal) (K : ℕ) :
    (z + ∑ k ∈ Finset.range (K + 1), tileSum f k) + tileSum f (K + 1) = z + ∑ k ∈ Finset.range (K + 1 + 1), tileSum f k := by
  rw [Finset.sum_range_succ _ (K + 1), add_assoc]

/-- The first tile added to the start value. -/
theorem total_zero (z : EReal) (f : Fin 4096 → EReal) :
    z + tileSum f 0 = z + ∑ k ∈ Finset.range (0 + 1), tileSum f k := by
  rw [Finset.sum_range_one]

/-! ## Minima -/

/-- `x` is the greatest value below `t` and below every entry `g k j` of the tiles `k ≤ K`. -/
def BelowTiles (g : ℕ → Fin 512 → EReal) (t : EReal) (K : ℕ) (x : EReal) : Prop :=
  ∀ c : EReal, c ≤ x ↔ c ≤ t ∧ ∀ k, k ≤ K → ∀ j, c ≤ g k j

/-- The running minimum after the first tile. -/
theorem belowTiles_zero (g : ℕ → Fin 512 → EReal) (t : EReal) :
    BelowTiles g t 0 (min t ((Finset.univ : Finset (Fin 512)).fold min t (g 0))) := by
  intro c
  rw [le_min_iff, Finset.le_fold_min]
  constructor
  · rintro ⟨h1, -, h2⟩
    exact ⟨h1, fun k hk j => by obtain rfl : k = 0 := Nat.le_zero.mp hk; exact h2 j (Finset.mem_univ _)⟩
  · rintro ⟨h1, h2⟩
    exact ⟨h1, h1, fun j _ => h2 0 le_rfl j⟩

/-- One more tile folded into the running minimum. -/
theorem belowTiles_succ (g : ℕ → Fin 512 → EReal) (t : EReal) (K : ℕ) (x : EReal) (h : BelowTiles g t K x) :
    BelowTiles g t (K + 1) (min x ((Finset.univ : Finset (Fin 512)).fold min t (g (K + 1)))) := by
  intro c
  rw [le_min_iff, Finset.le_fold_min, h c]
  constructor
  · rintro ⟨⟨h1, h2⟩, -, h3⟩
    refine ⟨h1, fun k hk j => ?_⟩
    rcases Nat.lt_or_ge k (K + 1) with hlt | hge
    · exact h2 k (Nat.lt_succ_iff.mp hlt) j
    · obtain rfl : k = K + 1 := le_antisymm hk hge
      exact h3 j (Finset.mem_univ _)
  · rintro ⟨h1, h2⟩
    exact ⟨⟨h1, fun k hk j => h2 k (Nat.le_succ_of_le hk) j⟩, h1, fun j _ => h2 (K + 1) le_rfl j⟩

/-- The entries of `f` tile by tile (the start value past the eighth tile, where it changes nothing). -/
def tiled (t : EReal) (f : Fin 4096 → EReal) (k : ℕ) (j : Fin 512) : EReal :=
  if h : k < 8 then f (tile ⟨k, h⟩ j) else t

theorem tiled_of_lt (t : EReal) (f : Fin 4096 → EReal) (k : Fin 8) (j : Fin 512) : tiled t f k.val j = f (tile k j) := by
  unfold tiled; rw [dif_pos k.isLt]

/-- After the eighth tile the running minimum is the minimum over all 4096 points. -/
theorem eq_fold_of_belowTiles (t : EReal) (f : Fin 4096 → EReal) (x : EReal) (h : BelowTiles (tiled t f) t 7 x) :
    x = (Finset.univ : Finset (Fin 4096)).fold min t f := by
  refine eq_of_forall_le_iff fun c => ?_
  rw [h c, le_fold_min_tiles]
  refine and_congr Iff.rfl ⟨fun h2 k j => ?_, fun h2 k hk j => ?_⟩
  · rw [← tiled_of_lt t f k j]; exact h2 k.val (Nat.lt_succ_iff.mp k.isLt) j
  · have hk8 : k < 8 := Nat.lt_succ_of_le hk
    have := h2 ⟨k, hk8⟩ j
    rwa [← tiled_of_lt t f ⟨k, hk8⟩ j] at this

end Cert.Chamfer

end
-- ==== Proof.LibPlainMatmul.lean ====
/-
  A plain matrix product read at an index, at the exact (extended-real) instance.

  For operands `l : [M, K]` and `w : [K, N]` and the dimension numbers "contract the left operand's last axis with the
  right operand's first, no batch axis", the product accumulated into the zero array has, at `(r, c)`, the value
  `∑ j, l (r, j) * w (j, c)`: there is no rounding and no accumulation order at this instance, and the one-axis contraction
  index is its one coordinate. Stated for every extent and every pair of operand formats (at this instance an entry is an
  extended real whatever its format).
-/
import Idealize.ShloMosaic.Lib.ValueIdx
import Idealize.ShloMosaic.PureOps.Ideal.Laws

noncomputable section

open scoped BigOperators

namespace Cert.Lib

open Idealize.ShloMosaic Idealize.ShloMosaic.ValueIdx

/-- A plain matrix product `[M, K] × [K, N]` accumulated into zeros, read at `(r, c)`: the sum over the contracted
    index `j` of `l (r, j) * w (j, c)`. -/
theorem matmul_plain_zero_apply {M K N : ℕ} {φ₁ φ₂ : FTy} (prec : Option ContractPrecision)
    (l : FVec Ideal ⟨2, ![M, K]⟩ φ₁) (w : FVec Ideal ⟨2, ![K, N]⟩ φ₂) (r : Fin M) (c : Fin N) :
    matmul (DotDims.plain M K N) prec l w (constant (F := Ideal) ⟨2, ![M, N]⟩ .f32 0x00000000#32) (ix2 r c)
      = ∑ j : Fin K, l (ix2 r j) * w (ix2 j c) := by
  simp only [matmul]
  rw [Ideal.matmul_constant_zero_apply, ← Equiv.sum_comp (contrEquiv1 (DotDims.plain M K N) K rfl rfl).symm]
  refine Finset.sum_congr rfl fun k _ => ?_
  -- the contraction index built from `k` has `k` as its one coordinate
  have hk := contrEquiv1_symm_val (DotDims.plain M K N) K rfl rfl k
  -- the left operand is read at (r, k): its kept axis follows the output's row, its contracted axis the index
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  -- the right operand is read at (k, c)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Lib

end
-- ==== Proof.TileValue.lean ====
/-
  The kernel body's arithmetic, read at an index, over the extended reals.

  One grid point sees a block of 512 points of the first cloud and a block of all 4096 points of the second. Each
  computed value of the body is read here at one index, as a closed expression in the entries of the blocks: the
  512 × 4096 tile of distances, its row minima, the running total, the running column minimum, and the final mean.
-/
import proofs.«155821_j38989713113333_1_alg».proof.Proof.Gen.KernelIdeal.Skeleton
import proofs.«155821_j38989713113333_1_alg».proof.Proof.Spec
import proofs.«155821_j38989713113333_1_alg».proof.Proof.LibPlainMatmul
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

noncomputable section

namespace Cert.Chamfer.Tile

open Idealize.ShloMosaic Idealize.ShloMosaic.ValueIdx Cert.KernelIdeal Cert.KernelIdeal.Gen Cert.Chamfer
open scoped BigOperators

/-- A row sum of a [512, 3] array. -/
theorem rowsum512 (src : FVec Ideal S512x3 .f32) (p : Fin 512) :
    multiReduction (F := Ideal) .add [1] S512 src 0x00000000#32 reduces_S512x3_S512 (.inl rfl) rfl (ix1 p)
      = ∑ d : Fin 3, src (ix2 p d) := by
  refine (Ideal.multiReduction_add_single src _ reduces_S512x3_S512 _ _ (ix1 p)).trans ?_
  refine Finset.sum_congr rfl fun d _ => congrArg src ?_
  exact funext fun a => Fin.ext (by match a with | ⟨0, _⟩ => rfl | ⟨1, _⟩ => rfl)

/-- A row sum of a [4096, 3] array. -/
theorem rowsum4096 (src : FVec Ideal S4096x3 .f32) (q : Fin 4096) :
    multiReduction (F := Ideal) .add [1] S4096 src 0x00000000#32 reduces_S4096x3_S4096 (.inl rfl) rfl (ix1 q)
      = ∑ d : Fin 3, src (ix2 q d) := by
  refine (Ideal.multiReduction_add_single src _ reduces_S4096x3_S4096 _ _ (ix1 q)).trans ?_
  refine Finset.sum_congr rfl fun d _ => congrArg src ?_
  exact funext fun a => Fin.ext (by match a with | ⟨0, _⟩ => rfl | ⟨1, _⟩ => rfl)

/-- A [512] array viewed as a column [512, 1]. -/
theorem col512_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [512, 1] broadcast over 4096 lanes. -/
theorem bcol_apply {α : Type} (x : S512x1.Idx → α) (h : S512x1.Broadcasts S512x4096) (p : Fin 512) (q : Fin 4096) :
    broadcastTo S512x4096 x h (ix2 p q) = x (ix2 p (0 : Fin 1)) := by
  refine broadcastTo_apply x h (ix2 p q) (ix2 p (0 : Fin 1)) fun ax => ?_
  match ax with
  | ⟨0, _⟩ => rfl
  | ⟨1, _⟩ => rfl

/-- The distance of point `p` of the first block to point `q` of the second:
    `√(max ((|x_p|² + |y_q|²) − 2 ⟨x_p, y_q⟩) 0)`. -/
def tdist (x0 : Vec Ideal S1x512x3 .f32) (x1 : Vec Ideal S1x4096x3 .f32) (p : Fin 512) (q : Fin 4096) : EReal :=
  Ideal.sqrt (max (((∑ d : Fin 3, x0 (ix3 0 p d) * x0 (ix3 0 p d)) + (∑ d : Fin 3, x1 (ix3 0 q d) * x1 (ix3 0 q d)))
    - two * (∑ d : Fin 3, x0 (ix3 0 p d) * x1 (ix3 0 q d))) zer)

/-- A square root taken entry by entry. -/
theorem sqrt_apply {s : Shape} {φ : FTy} (v : FVec Ideal s φ) (i : s.Idx) :
    Idealize.ShloMosaic.sqrt v i = Ideal.sqrt (v i) := rfl

/-- The [4096, 3] array transposed reads, at `(d, q)`, the array at `(q, d)`. -/
theorem tr_apply {α : Type} (x : S4096x3.Idx → α) (h : S4096x3.Transposes [1, 0] S3x4096) (d : Fin 3) (q : Fin 4096) :
    transpose S3x4096 [1, 0] x h (ix2 d q) = x (ix2 q d) :=
  transpose_ix2_apply x h d q

/-- The product of the [512, 3] block with the transposed [4096, 3] block, accumulated into zeros: at `(p, q)`,
    the inner product of row `p` with row `q`. -/
theorem dot_apply (l : FVec Ideal S512x3 .f32) (w : FVec Ideal S4096x3 .f32) (h : S4096x3.Transposes [1, 0] S3x4096)
    (p : Fin 512) (q : Fin 4096) :
    matmul dot_S512x3_S3x4096_S512x4096_1_0_0_1_n_n none l (transpose S3x4096 [1, 0] w h)
        (constant (F := Ideal) S512x4096 .f32 0x00000000#32) (ix2 p q)
      = ∑ d : Fin 3, l (ix2 p d) * w (ix2 q d) := by
  refine (Cert.Lib.matmul_plain_zero_apply none l _ p q).trans ?_
  exact Finset.sum_congr rfl fun d _ => congrArg (l (ix2 p d) * ·) (tr_apply w h d q)

/-- The distance tile at `(p, q)`. -/
theorem pay6_apply (x0 : Vec Ideal S1x512x3 .f32) (x1 : Vec Ideal S1x4096x3 .f32) (p : Fin 512) (q : Fin 4096) :
    k0_pay6 (F := Ideal) x0 x1 (ix2 p q) = tdist x0 x1 p q := by
  unfold k0_pay6 tdist
  simp only [sqrt_apply, maximumf_apply, subf_apply, addf_apply, mulf_apply, broadcast_apply, Ideal.ofBits_def]
  rw [bcol_apply, col512_apply, rowsum512, broadcastTo_1b_ab_apply, shapeCast_a_1a_apply, rowsum4096, dot_apply]
  simp only [mulf_apply, shapeCast_1ab_ab_apply] <;> rfl

/-- A row minimum of the [512, 4096] tile, taken from `+∞`. -/
theorem rowmin_apply (src : FVec Ideal S512x4096 .f32) (p : Fin 512) :
    multiReduction (F := Ideal) .minimumf [1] S512 src 0x7F800000#32 reduces_S512x4096_S512 (.inl rfl) rfl (ix1 p)
      = (Finset.univ : Finset (Fin 4096)).fold min inf (fun q => src (ix2 p q)) := by
  refine (multiReduction_minimumf_eq_fold src _ reduces_S512x4096_S512 _ _ (ix1 p)).trans ?_
  refine (reduces_S512x4096_S512.fold_filter_drop_single _ _ src (ix1 p)).trans ?_
  show (Finset.univ : Finset (Fin 4096)).fold min inf (src ∘ reduces_S512x4096_S512.lift (ix1 p)) = _
  refine congrArg (fun f => (Finset.univ : Finset (Fin 4096)).fold min inf f) (funext fun q => congrArg src ?_)
  exact funext fun a => Fin.ext (by match a with | ⟨0, _⟩ => rfl | ⟨1, _⟩ => rfl)

/-- A column minimum of the [512, 4096] tile, taken from `+∞`. -/
theorem colmin_apply (src : FVec Ideal S512x4096 .f32) (q : Fin 4096) :
    multiReduction (F := Ideal) .minimumf [0] S4096 src 0x7F800000#32 reduces_S512x4096_S4096 (.inl rfl) rfl (ix1 q)
      = (Finset.univ : Finset (Fin 512)).fold min inf (fun p => src (ix2 p q)) := by
  refine (multiReduction_minimumf_eq_fold src _ reduces_S512x4096_S4096 _ _ (ix1 q)).trans ?_
  refine (reduces_S512x4096_S4096.fold_filter_drop_single _ _ src (ix1 q)).trans ?_
  show (Finset.univ : Finset (Fin 512)).fold min inf (src ∘ reduces_S512x4096_S4096.lift (ix1 q)) = _
  refine congrArg (fun f => (Finset.univ : Finset (Fin 512)).fold min inf f) (funext fun p => congrArg src ?_)
  exact funext fun a => Fin.ext (by match a with | ⟨0, _⟩ => rfl | ⟨1, _⟩ => rfl)

/-- The row minima as a column: at `(p, 0)`, the least distance of point `p` to the second block. -/
theorem pay7_apply (x0 : Vec Ideal S1x512x3 .f32) (x1 : Vec Ideal S1x4096x3 .f32) (p : Fin 512) (u : Fin 1) :
    k0_pay7 (F := Ideal) x0 x1 (ix2 p u)
      = (Finset.univ : Finset (Fin 4096)).fold min inf (fun q => tdist x0 x1 p q) := by
  unfold k0_pay7
  rw [col512_apply, rowmin_apply]
  exact congrArg (fun f => (Finset.univ : Finset (Fin 4096)).fold min inf f) (funext fun q => pay6_apply x0 x1 p q)

/-- The stored row minima, at `(0, p, 0)`. -/
theorem pay8_apply (x0 : Vec Ideal S1x512x3 .f32) (x1 : Vec Ideal S1x4096x3 .f32) (p : Fin 512) :
    k0_pay8 (F := Ideal) x0 x1 (ix3 0 p 0)
      = (Finset.univ : Finset (Fin 4096)).fold min inf (fun q => tdist x0 x1 p q) := by
  unfold k0_pay8
  rw [shapeCast_ab_1ab_apply]
  exact pay7_apply x0 x1 p 0

/-- The column [512, 1] summed over its 512 rows. -/
theorem colsum_apply (src : FVec Ideal S512x1 .f32) :
    multiReduction (F := Ideal) .add [0] S1 src 0x00000000#32 reduces_S512x1_S1 (.inl rfl) rfl (ix1 0)
      = ∑ p : Fin 512, src (ix2 p 0) := by
  refine (Ideal.multiReduction_add_single src _ reduces_S512x1_S1 _ _ (ix1 0)).trans ?_
  refine Finset.sum_congr rfl fun k _ => congrArg src ?_
  exact funext fun a => Fin.ext (by match a with | ⟨0, _⟩ => rfl | ⟨1, _⟩ => rfl)

/-- The row [1, 4096] summed over its 4096 lanes. -/
theorem lanesum_apply (src : FVec Ideal S1x4096 .f32) :
    multiReduction (F := Ideal) .add [1] S1 src 0x00000000#32 reduces_S1x4096_S1 (.inl rfl) rfl (ix1 0)
      = ∑ q : Fin 4096, src (ix2 0 q) := by
  refine (Ideal.multiReduction_add_single src _ reduces_S1x4096_S1 _ _ (ix1 0)).trans ?_
  refine Finset.sum_congr rfl fun k _ => congrArg src ?_
  exact funext fun a => Fin.ext (by match a with | ⟨0, _⟩ => rfl | ⟨1, _⟩ => rfl)

/-- One entry broadcast over 128 lanes. -/
theorem blane_apply {α : Type} (x : S1x1.Idx → α) (h : S1x1.Broadcasts S1x128) (u : Fin 1) (l : Fin 128) :
    broadcastTo S1x128 x h (ix2 u l) = x (ix2 (0 : Fin 1) (0 : Fin 1)) := by
  refine broadcastTo_apply x h (ix2 u l) (ix2 (0 : Fin 1) (0 : Fin 1)) fun ax => ?_
  match ax with
  | ⟨0, _⟩ => rfl
  | ⟨1, _⟩ => rfl

/-- The running total after this tile: the total before plus the sum of the tile's row minima. -/
theorem pay9_apply (x0 : Vec Ideal S1x512x3 .f32) (x1 : Vec Ideal S1x4096x3 .f32) (v29 : Vec Ideal S1x1 .f32) :
    k0_pay9 (F := Ideal) x0 x1 v29 (ix2 0 0)
      = v29 (ix2 0 0) + ∑ p : Fin 512, (Finset.univ : Finset (Fin 4096)).fold min inf (fun q => tdist x0 x1 p q) := by
  unfold k0_pay9
  rw [addf_apply, shapeCast_a_1a_apply, colsum_apply]
  exact congrArg (v29 (ix2 0 0) + ·) (Finset.sum_congr rfl fun p _ => pay7_apply x0 x1 p 0)

/-- The running column minimum after this tile: the minimum before, against the tile's column minimum. -/
theorem pay2_apply (v23 : FVec Ideal S512x4096 .f32) (v38 : Vec Ideal S1x4096 .f32) (q : Fin 4096) :
    k0_pay2 (F := Ideal) v23 v38 (ix2 0 q)
      = min (v38 (ix2 0 q)) ((Finset.univ : Finset (Fin 512)).fold min inf (fun p => v23 (ix2 p q))) := by
  unfold k0_pay2
  rw [shapeCast_self, minimumf_apply, shapeCast_a_1a_apply, colmin_apply]

/-- The final value on every lane: the mean row minimum plus the mean column minimum, halved. -/
theorem pay3_apply (v46 : Vec Ideal S1x4096 .f32) (v51 : Vec Ideal S1x1 .f32) (l : Fin 128) :
    k0_pay3 (F := Ideal) v46 v51 (ix3 0 0 l)
      = (Ideal.div (v51 (ix2 0 0)) n4096 + Ideal.div (∑ q : Fin 4096, v46 (ix2 0 q)) n4096) * half := by
  unfold k0_pay3
  rw [shapeCast_ab_1ab_apply, blane_apply, shapeCast_self, mulf_apply, addf_apply, divf_apply, divf_apply,
    shapeCast_a_1a_apply, lanesum_apply]
  rfl

/-- The identity cast of the running total. -/
theorem pay1_apply (v : FVec Ideal S1x1 .f32) (i : S1x1.Idx) : k0_pay1 (F := Ideal) v i = v i := by
  unfold k0_pay1
  rw [shapeCast_self]

/-- The splat of `+∞`. -/
theorem pay4_apply (q : Fin 4096) : k0_pay4 (F := Ideal) (ix2 0 q) = inf := by
  unfold k0_pay4
  rw [shapeCast_self]
  rfl

/-- The splat of zero. -/
theorem pay5_apply : k0_pay5 (F := Ideal) (ix2 0 0) = zer := by
  unfold k0_pay5
  rw [shapeCast_self]
  rfl

end Cert.Chamfer.Tile

end
-- ==== Proof.LibWholeStore.lean ====
/-
  A buffer whose LAST store went through the rectangle covering its whole shape (offsets all zero) holds that store's payload,
  whatever was stored before: read back through the view, or loaded again through the same rectangle. General facts about
  views, stated once so that a kernel body that overwrites a scratch or an output block whole can be read off its store list.
-/
import Idealize.ShloMosaic.Lib.Pipeline.FrameBody
import Idealize.ShloMosaic.Lib.Pipeline.Value

namespace Idealize.ShloMosaic.View

variable {Val : EltTy → Type} [∀ e, Nonempty (Val e)] {S : Shape} {e : EltTy}
variable {sig : RefSig} {κ : Kind} {sp : Space}

/-- Reading a buffer back after a list of stores whose last one covers the whole shape gives that store's payload. -/
theorem read_writes_whole_last (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.Mem.head _, mem_set_unit_zero h inb y⟩), canon_cons_unit_zero h]

/-- Loading the whole shape after such a list of stores reads that payload. -/
theorem readCov_whole_last (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.Mem.head _, mem_set_unit_zero rfl inb y⟩), canon_cons_unit_zero rfl,
    ld_unit_zero rfl]

/-- Loading the whole shape of a buffer reads its contents. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld]; exact ld_unit_zero h inb _

end Idealize.ShloMosaic.View

namespace Cert.Lib

/-- The zero offsets of a rank-2 and of a rank-3 rectangle, as the printed programs spell them. -/
theorem zeros2 : (![0, 0] : Fin 2 → Nat) = fun _ => 0 := funext fun a => by fin_cases a <;> rfl
theorem zeros3 : (![0, 0, 0] : Fin 3 → Nat) = fun _ => 0 := funext fun a => by fin_cases a <;> rfl

end Cert.Lib
-- ==== Proof.Pieces.lean ====
/-
  What each control case of the kernel body leaves in each buffer, as the body's pure payload terms.

  The body runs in one of three cases: at the first point of a sample (A), at a middle point (B), at the last
  point (C). In every case the output block of window 2 ends holding the row minima of the distance matrix of the two
  input blocks (k0_pay8); the running-minimum scratch ends holding the minimum of what it held before with the
  column minima (k0_pay2), and the running-sum scratch what it held before plus the sum of the row minima (k0_pay9,
  through the identity cast k0_pay1). "What it held before" is the value the point before left (xs0, xs1) in cases B
  and C, and in case A the +inf splat (k0_pay4) and the zero splat (k0_pay5) the body has just stored there. In case C
  the block of window 3 ends holding the sample's halved sum of the two means (k0_pay3), read off the two scratches
  after their last stores.

  Each statement is read off the stores the case's run found: one store through the rectangle of the whole shape at
  offset zero leaves its payload; a load through that rectangle reads back what the store before it left; a load of a
  whole buffer reads its contents.
-/
import proofs.«155821_j38989713113333_1_alg».proof.Proof.Gen.KernelIdeal.Frame
import proofs.«155821_j38989713113333_1_alg».proof.Proof.LibWholeStore
import Idealize.ShloMosaic.Lib.Pipeline.Value
import Idealize.ShloMosaic.Lib.Tactic

noncomputable section

namespace Cert.Chamfer.Pieces

open Idealize.ShloMosaic Idealize.ShloMosaic.TcCoe Idealize.SL.Sem Cert.KernelIdeal Cert.KernelIdeal.Gen
open Cert.Lib (zeros2 zeros3)

variable {F : FTy → Type} [FloatOps F]

/-! ## Case B: a middle point -/

theorem out_B_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i)
    (x0 : Vec F S1x512x3 .f32) (x1 : Vec F S1x4096x3 .f32) (xs0 : Vec F S1x4096 .f32) (xs1 : Vec F S1x1 .f32) :
    out0_B_2 c i arg2 harg2 arg3 harg3 arg4 harg4 arg5 harg5 arg6 harg6 arg7 harg7 hc0 hc1 x0 x1 xs0 xs1 = k0_pay8 x0 x1 := by
  unfold out0_B_2
  rw [View.read_writes_eq_canon _ _ _ (cover0_B_2 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x512x1) zeros3]
  simp only [View.readAt_eq_ld, harg2.read_unread, harg3.read_unread, View.ld_unit_zero (S := S1x512x3) zeros3, View.ld_unit_zero (S := S1x4096x3) zeros3]

theorem sout_B_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i)
    (x0 : Vec F S1x512x3 .f32) (x1 : Vec F S1x4096x3 .f32) (xs0 : Vec F S1x4096 .f32) (xs1 : Vec F S1x1 .f32) :
    sout0_B_0 c i arg2 harg2 arg3 harg3 arg4 harg4 arg5 harg5 arg6 harg6 arg7 harg7 hc0 hc1 x0 x1 xs0 xs1 = k0_pay2 (k0_pay6 x0 x1) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x4096) zeros2]
  simp only [View.readAt_eq_ld, harg2.read_unread, harg3.read_unread, harg6.read_unread, View.ld_unit_zero (S := S1x512x3) zeros3, View.ld_unit_zero (S := S1x4096x3) zeros3, View.ld_unit_zero (S := S1x4096) zeros2]

theorem sout_B_1 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i)
    (x0 : Vec F S1x512x3 .f32) (x1 : Vec F S1x4096x3 .f32) (xs0 : Vec F S1x4096 .f32) (xs1 : Vec F S1x1 .f32) :
    sout0_B_1 c i arg2 harg2 arg3 harg3 arg4 harg4 arg5 harg5 arg6 harg6 arg7 harg7 hc0 hc1 x0 x1 xs0 xs1 = k0_pay1 (k0_pay9 x0 x1 xs1) := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1) zeros2]
  simp only [View.readAt_eq_ld, harg2.read_unread, harg3.read_unread, harg7.read_unread, View.ld_unit_zero (S := S1x512x3) zeros3, View.ld_unit_zero (S := S1x4096x3) zeros3, View.ld_unit_zero (S := S1x1) zeros2]

/-! ## Case C: the last point of a sample -/

theorem out_C_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i)
    (x0 : Vec F S1x512x3 .f32) (x1 : Vec F S1x4096x3 .f32) (xs0 : Vec F S1x4096 .f32) (xs1 : Vec F S1x1 .f32) :
    out0_C_2 c i arg2 harg2 arg3 harg3 arg4 harg4 arg5 harg5 arg6 harg6 arg7 harg7 hc0 hc1 x0 x1 xs0 xs1 = k0_pay8 x0 x1 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x512x1) zeros3]
  simp only [View.readAt_eq_ld, harg2.read_unread, harg3.read_unread, View.ld_unit_zero (S := S1x512x3) zeros3, View.ld_unit_zero (S := S1x4096x3) zeros3]

theorem sout_C_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i)
    (x0 : Vec F S1x512x3 .f32) (x1 : Vec F S1x4096x3 .f32) (xs0 : Vec F S1x4096 .f32) (xs1 : Vec F S1x1 .f32) :
    sout0_C_0 c i arg2 harg2 arg3 harg3 arg4 harg4 arg5 harg5 arg6 harg6 arg7 harg7 hc0 hc1 x0 x1 xs0 xs1 = k0_pay2 (k0_pay6 x0 x1) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x4096) zeros2]
  simp only [View.readAt_eq_ld, harg2.read_unread, harg3.read_unread, harg6.read_unread, View.ld_unit_zero (S := S1x512x3) zeros3, View.ld_unit_zero (S := S1x4096x3) zeros3, View.ld_unit_zero (S := S1x4096) zeros2]

theorem sout_C_1 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i)
    (x0 : Vec F S1x512x3 .f32) (x1 : Vec F S1x4096x3 .f32) (xs0 : Vec F S1x4096 .f32) (xs1 : Vec F S1x1 .f32) :
    sout0_C_1 c i arg2 harg2 arg3 harg3 arg4 harg4 arg5 harg5 arg6 harg6 arg7 harg7 hc0 hc1 x0 x1 xs0 xs1 = k0_pay1 (k0_pay9 x0 x1 xs1) := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1) zeros2]
  simp only [View.readAt_eq_ld, harg2.read_unread, harg3.read_unread, harg7.read_unread, View.ld_unit_zero (S := S1x512x3) zeros3, View.ld_unit_zero (S := S1x4096x3) zeros3, View.ld_unit_zero (S := S1x1) zeros2]

theorem out_C_3 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i)
    (x0 : Vec F S1x512x3 .f32) (x1 : Vec F S1x4096x3 .f32) (xs0 : Vec F S1x4096 .f32) (xs1 : Vec F S1x1 .f32) :
    out0_C_3 c i arg2 harg2 arg3 harg3 arg4 harg4 arg5 harg5 arg6 harg6 arg7 harg7 hc0 hc1 x0 x1 xs0 xs1 = k0_pay3 (k0_pay2 (k0_pay6 x0 x1) xs0) (k0_pay1 (k0_pay9 x0 x1 xs1)) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x128) zeros3, View.readCov_unit_zero (S := S1x4096) _ zeros2, View.readCov_unit_zero (S := S1x1) _ zeros2]
  simp only [View.readAt_eq_ld, harg2.read_unread, harg3.read_unread, harg6.read_unread, harg7.read_unread, View.ld_unit_zero (S := S1x512x3) zeros3, View.ld_unit_zero (S := S1x4096x3) zeros3, View.ld_unit_zero (S := S1x4096) zeros2, View.ld_unit_zero (S := S1x1) zeros2]

/-! ## Case A: the first point of a sample -/

theorem out_A_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i)
    (x0 : Vec F S1x512x3 .f32) (x1 : Vec F S1x4096x3 .f32) :
    out0_A_2 c i arg2 harg2 arg3 harg3 arg4 harg4 arg5 harg5 arg6 harg6 arg7 harg7 hc0 hc1 x0 x1 = k0_pay8 x0 x1 := by
  unfold out0_A_2
  rw [View.read_writes_eq_canon _ _ _ (cover0_A_2 c i arg2 harg2 arg3 harg3 arg4 harg4 arg5 harg5 arg6 harg6 arg7 harg7 hc0 hc1 x0 x1)]
  unfold kernelRun0_A
  dsimp only
  sl_unfold_words
  rw [View.canon_unit_zero (S := S1x512x1) zeros3]
  simp only [View.readAt_eq_ld, harg2.read_unread, harg3.read_unread, View.ld_unit_zero (S := S1x512x3) zeros3, View.ld_unit_zero (S := S1x4096x3) zeros3]

theorem sout_A_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i)
    (x0 : Vec F S1x512x3 .f32) (x1 : Vec F S1x4096x3 .f32) :
    sout0_A_0 c i arg2 harg2 arg3 harg3 arg4 harg4 arg5 harg5 arg6 harg6 arg7 harg7 hc0 hc1 x0 x1 = k0_pay2 (k0_pay6 x0 x1) k0_pay4 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x4096) zeros2, View.readCov_unit_zero (S := S1x4096) _ zeros2]
  simp only [View.readAt_eq_ld, harg2.read_unread, harg3.read_unread, View.ld_unit_zero (S := S1x512x3) zeros3, View.ld_unit_zero (S := S1x4096x3) zeros3]

theorem sout_A_1 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x512x1 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i)
    (x0 : Vec F S1x512x3 .f32) (x1 : Vec F S1x4096x3 .f32) :
    sout0_A_1 c i arg2 harg2 arg3 harg3 arg4 harg4 arg5 harg5 arg6 harg6 arg7 harg7 hc0 hc1 x0 x1 = k0_pay1 (k0_pay9 x0 x1 k0_pay5) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1) zeros2, View.readCov_unit_zero (S := S1x1) _ zeros2]
  simp only [View.readAt_eq_ld, harg2.read_unread, harg3.read_unread, View.ld_unit_zero (S := S1x512x3) zeros3, View.ld_unit_zero (S := S1x4096x3) zeros3]

end Cert.Chamfer.Pieces

end
-- ==== Proof.Running.lean ====
/-
  The carried minimum and the carried total, point by point, and what each grid point writes back.

  The kernel keeps two scratch arrays from one grid point of a sample to the next: a [1, 4096] running minimum — for each
  point `q` of the second cloud, the least distance to the points of the first cloud's tiles visited so far — and a
  [1, 1] running total of the forward distances of those tiles' points. A sample's first point starts them from the
  `+∞` and zero splats, each later point folds its own tile in. By induction over the points of the grid the running
  minimum after tile `k` is the greatest value below `+∞` and below the distances to tiles `0 … k`, and the running total
  is zero plus the tile sums `0 … k`; after the eighth tile they are the backward distances and the sum of the forward
  distances, and the last point's formula of them is the sample's coherence.
-/
import proofs.«155821_j38989713113333_1_alg».proof.Proof.Gen.KernelIdeal.Frame
import proofs.«155821_j38989713113333_1_alg».proof.Proof.Spec
import proofs.«155821_j38989713113333_1_alg».proof.Proof.Blocks
import proofs.«155821_j38989713113333_1_alg».proof.Proof.Regroup
import proofs.«155821_j38989713113333_1_alg».proof.Proof.TileValue
import proofs.«155821_j38989713113333_1_alg».proof.Proof.Pieces
import Idealize.ShloMosaic.Lib.Pipeline.Value
import Idealize.ShloMosaic.Lib.ValueIdx

set_option maxRecDepth 16384

noncomputable section

namespace Cert.Chamfer.Running

open Idealize.ShloMosaic Idealize.ShloMosaic.TcCoe Idealize.SL.Sem Idealize.ShloMosaic.ValueIdx
open Cert.KernelIdeal Cert.KernelIdeal.Gen Cert.Chamfer Cert.Chamfer.Blocks
open scoped BigOperators

variable (m : (ℓ : Loc nD τ sig) → Buf (Elt Ideal) ℓ)

/-! ## One point's tile, in the specification's terms -/

/-- The distance tile of point `t`: tile point `j` against point `q`, within the point's sample. -/
theorem tdist_iblk (c : Dev nD) (t : Fin cfg0.N) (j : Fin 512) (q : Fin 4096) :
    Tile.tdist (iblk m c 0 t) (iblk m c 1 t) j q = dist (cloudP m c) (cloudR m c) (sampleOf t) (tile (tileOf t) j) q := by
  unfold Tile.tdist dist sqn dotp
  simp only [iblk0_apply m c t, iblk1_apply m c t]

/-- A row minimum of the tile is the forward distance of that point. -/
theorem rowmin_iblk (c : Dev nD) (t : Fin cfg0.N) (j : Fin 512) :
    (Finset.univ : Finset (Fin 4096)).fold min inf (fun q => Tile.tdist (iblk m c 0 t) (iblk m c 1 t) j q)
      = fwd (cloudP m c) (cloudR m c) (sampleOf t) (tile (tileOf t) j) := by
  unfold fwd
  exact congrArg (fun f => Finset.fold min inf f Finset.univ) (funext fun q => tdist_iblk m c t j q)

/-- The distances of one point `q` of the second cloud to the points of the first, tile by tile. -/
def tileDists (c : Dev nD) (b : Fin 16) (q : Fin 4096) : ℕ → Fin 512 → EReal :=
  tiled inf (fun p => dist (cloudP m c) (cloudR m c) b p q)

/-- Column `q` of point `t`'s distance tile is tile `t % 8` of those distances. -/
theorem col_tile (c : Dev nD) (t : Fin cfg0.N) (q : Fin 4096) :
    (fun p : Fin 512 => k0_pay6 (F := Ideal) (iblk m c 0 t) (iblk m c 1 t) (ix2 p q)) = tileDists m c (sampleOf t) q (t.val % 8) := by
  funext p
  rw [Tile.pay6_apply, tdist_iblk]
  exact (tiled_of_lt inf (fun p => dist (cloudP m c) (cloudR m c) (sampleOf t) p q) (tileOf t) p).symm

/-- The sum of the tile's row minima is tile `t % 8`'s share of the forward total. -/
theorem tile_total (c : Dev nD) (t : Fin cfg0.N) :
    ∑ p : Fin 512, (Finset.univ : Finset (Fin 4096)).fold min inf (fun q => Tile.tdist (iblk m c 0 t) (iblk m c 1 t) p q)
      = tileSum (fwd (cloudP m c) (cloudR m c) (sampleOf t)) (t.val % 8) := by
  rw [show t.val % 8 = (tileOf t).val from rfl, tileSum_of_lt]
  exact Finset.sum_congr rfl fun p _ => rowmin_iblk m c t p

/-! ## What each point leaves, by control case -/

/-- The carried minimum and total as the point before `t` left them. -/
abbrev prevS0 (c : Dev nD) (t : Fin cfg0.N) : Vec Ideal S1x4096 .f32 :=
  (outsAt0 m c (t.val - 1) (Nat.lt_of_le_of_lt (Nat.sub_le _ _) t.isLt)).2.2.1
abbrev prevS1 (c : Dev nD) (t : Fin cfg0.N) : Vec Ideal S1x1 .f32 :=
  (outsAt0 m c (t.val - 1) (Nat.lt_of_le_of_lt (Nat.sub_le _ _) t.isLt)).2.2.2

/-- Every point leaves its tile's row minima in the first output's block. -/
theorem fwd_block (c : Dev nD) (t : Fin cfg0.N) :
    (outsAt0 m c t.val t.isLt).1 = k0_pay8 (iblk m c 0 t) (iblk m c 1 t) := by
  by_cases h0 : t.val % 8 = 0
  · have h1 : ¬t.val % 8 = 7 := by omega
    rw [outsAt0_A m c t h0 h1]
    dsimp only
    exact Pieces.out_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)
  · by_cases h1 : t.val % 8 = 7
    · rw [outsAt0_C m c t h0 h1]
      dsimp only
      exact Pieces.out_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (prevS0 m c t) (prevS1 m c t)
    · rw [outsAt0_B m c t h0 h1]
      dsimp only
      exact Pieces.out_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (prevS0 m c t) (prevS1 m c t)

/-- A sample's first point starts the carried minimum from the `+∞` splat. -/
theorem s0_first (c : Dev nD) (t : Fin cfg0.N) (h0 : t.val % 8 = 0) :
    (outsAt0 m c t.val t.isLt).2.2.1 = k0_pay2 (k0_pay6 (iblk m c 0 t) (iblk m c 1 t)) (k0_pay4 (F := Ideal)) := by
  have h1 : ¬t.val % 8 = 7 := by omega
  rw [outsAt0_A m c t h0 h1]
  dsimp only
  exact Pieces.sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-- and the carried total from the zero splat. -/
theorem s1_first (c : Dev nD) (t : Fin cfg0.N) (h0 : t.val % 8 = 0) :
    (outsAt0 m c t.val t.isLt).2.2.2 = k0_pay1 (k0_pay9 (iblk m c 0 t) (iblk m c 1 t) (k0_pay5 (F := Ideal))) := by
  have h1 : ¬t.val % 8 = 7 := by omega
  rw [outsAt0_A m c t h0 h1]
  dsimp only
  exact Pieces.sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-- A later point folds its tile into what the point before left. -/
theorem s0_next (c : Dev nD) (t : Fin cfg0.N) (h0 : ¬t.val % 8 = 0) :
    (outsAt0 m c t.val t.isLt).2.2.1 = k0_pay2 (k0_pay6 (iblk m c 0 t) (iblk m c 1 t)) (prevS0 m c t) := by
  by_cases h1 : t.val % 8 = 7
  · rw [outsAt0_C m c t h0 h1]
    dsimp only
    exact Pieces.sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (prevS0 m c t) (prevS1 m c t)
  · rw [outsAt0_B m c t h0 h1]
    dsimp only
    exact Pieces.sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (prevS0 m c t) (prevS1 m c t)

theorem s1_next (c : Dev nD) (t : Fin cfg0.N) (h0 : ¬t.val % 8 = 0) :
    (outsAt0 m c t.val t.isLt).2.2.2 = k0_pay1 (k0_pay9 (iblk m c 0 t) (iblk m c 1 t) (prevS1 m c t)) := by
  by_cases h1 : t.val % 8 = 7
  · rw [outsAt0_C m c t h0 h1]
    dsimp only
    exact Pieces.sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (prevS0 m c t) (prevS1 m c t)
  · rw [outsAt0_B m c t h0 h1]
    dsimp only
    exact Pieces.sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (prevS0 m c t) (prevS1 m c t)

/-- A sample's last point also writes the second output's block: the final formula of the carried minimum and total as it
    has just updated them. -/
theorem out3_last (c : Dev nD) (t : Fin cfg0.N) (h7 : t.val % 8 = 7) :
    (outsAt0 m c t.val t.isLt).2.1 = k0_pay3 (outsAt0 m c t.val t.isLt).2.2.1 (outsAt0 m c t.val t.isLt).2.2.2 := by
  have h0 : ¬t.val % 8 = 0 := by omega
  rw [s0_next m c t h0, s1_next m c t h0, outsAt0_C m c t h0 h7]
  dsimp only
  exact Pieces.out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h7) (iblk m c 0 t) (iblk m c 1 t) (prevS0 m c t) (prevS1 m c t)

/-! ## The carried minimum and total after every point -/

theorem s0_below_first (c : Dev nD) (t : Fin cfg0.N) (h0 : t.val % 8 = 0) (q : Fin 4096) :
    BelowTiles (tileDists m c (sampleOf t) q) inf (t.val % 8) ((outsAt0 m c t.val t.isLt).2.2.1 (ix2 0 q)) := by
  rw [s0_first m c t h0, Tile.pay2_apply, Tile.pay4_apply, col_tile, h0]
  exact belowTiles_zero _ _

theorem s0_below_next (c : Dev nD) (t : Fin cfg0.N) (h0 : ¬t.val % 8 = 0) (q : Fin 4096) (K : ℕ) (hK : t.val % 8 = K + 1)
    (ih : BelowTiles (tileDists m c (sampleOf t) q) inf K (prevS0 m c t (ix2 0 q))) :
    BelowTiles (tileDists m c (sampleOf t) q) inf (t.val % 8) ((outsAt0 m c t.val t.isLt).2.2.1 (ix2 0 q)) := by
  rw [s0_next m c t h0, Tile.pay2_apply, col_tile, hK]
  exact belowTiles_succ _ _ _ _ ih

/-- After point `n` the carried minimum at `q` is the greatest value below `+∞` and below the distances of `q` to the
    points of the tiles visited so far in the sample. -/
theorem s0_below (c : Dev nD) : ∀ (n : ℕ) (h : n < cfg0.N) (q : Fin 4096),
    BelowTiles (tileDists m c (sampleOf ⟨n, h⟩) q) inf (n % 8) ((outsAt0 m c n h).2.2.1 (ix2 0 q))
  | 0, h, q => s0_below_first m c ⟨0, h⟩ rfl q
  | n + 1, h, q => by
    by_cases h0 : (n + 1) % 8 = 0
    · exact s0_below_first m c ⟨n + 1, h⟩ h0 q
    · have ih := s0_below c n (Nat.lt_of_succ_lt h) q
      have hs : sampleOf ⟨n + 1, h⟩ = sampleOf ⟨n, Nat.lt_of_succ_lt h⟩ := Fin.ext (by show (n + 1) / 8 = n / 8; omega)
      have hK : (n + 1) % 8 = n % 8 + 1 := by omega
      refine s0_below_next m c ⟨n + 1, h⟩ h0 q (n % 8) hK ?_
      rw [hs]; exact ih

theorem s1_total_first (c : Dev nD) (t : Fin cfg0.N) (h0 : t.val % 8 = 0) :
    (outsAt0 m c t.val t.isLt).2.2.2 (ix2 0 0) = zer + ∑ k ∈ Finset.range (t.val % 8 + 1), tileSum (fwd (cloudP m c) (cloudR m c) (sampleOf t)) k := by
  rw [s1_first m c t h0, Tile.pay1_apply, Tile.pay9_apply, Tile.pay5_apply, tile_total, h0]
  exact total_zero _ _

theorem s1_total_next (c : Dev nD) (t : Fin cfg0.N) (h0 : ¬t.val % 8 = 0) (K : ℕ) (hK : t.val % 8 = K + 1)
    (ih : prevS1 m c t (ix2 0 0) = zer + ∑ k ∈ Finset.range (K + 1), tileSum (fwd (cloudP m c) (cloudR m c) (sampleOf t)) k) :
    (outsAt0 m c t.val t.isLt).2.2.2 (ix2 0 0) = zer + ∑ k ∈ Finset.range (t.val % 8 + 1), tileSum (fwd (cloudP m c) (cloudR m c) (sampleOf t)) k := by
  rw [s1_next m c t h0, Tile.pay1_apply, Tile.pay9_apply, tile_total, ih, hK]
  exact total_succ _ _ _

/-- After point `n` the carried total is the zero it started from plus the forward distances of the tiles visited so far. -/
theorem s1_total (c : Dev nD) : ∀ (n : ℕ) (h : n < cfg0.N),
    (outsAt0 m c n h).2.2.2 (ix2 0 0) = zer + ∑ k ∈ Finset.range (n % 8 + 1), tileSum (fwd (cloudP m c) (cloudR m c) (sampleOf ⟨n, h⟩)) k
  | 0, h => s1_total_first m c ⟨0, h⟩ rfl
  | n + 1, h => by
    by_cases h0 : (n + 1) % 8 = 0
    · exact s1_total_first m c ⟨n + 1, h⟩ h0
    · have ih := s1_total c n (Nat.lt_of_succ_lt h)
      have hs : sampleOf ⟨n + 1, h⟩ = sampleOf ⟨n, Nat.lt_of_succ_lt h⟩ := Fin.ext (by show (n + 1) / 8 = n / 8; omega)
      have hK : (n + 1) % 8 = n % 8 + 1 := by omega
      refine s1_total_next m c ⟨n + 1, h⟩ h0 (n % 8) hK ?_
      rw [hs]; exact ih

/-! ## What is written back -/

/-- Row `j` of the first output's block at point `t`: the forward distance of that tile point. -/
theorem out2_value (c : Dev nD) (t : Fin cfg0.N) (j : Fin 512) :
    (outsAt0 m c t.val t.isLt).1 (ix3 0 j 0) = fwd (cloudP m c) (cloudR m c) (sampleOf t) (tile (tileOf t) j) := by
  rw [fwd_block, Tile.pay8_apply, rowmin_iblk]

/-- After a sample's last point the carried minimum is the backward distance, -/
theorem s0_last (c : Dev nD) (t : Fin cfg0.N) (h7 : t.val % 8 = 7) (q : Fin 4096) :
    (outsAt0 m c t.val t.isLt).2.2.1 (ix2 0 q) = bwd (cloudP m c) (cloudR m c) (sampleOf t) q := by
  have h := s0_below m c t.val t.isLt q
  rw [h7] at h
  exact eq_fold_of_belowTiles inf _ _ h

/-- the carried total the sum of the sample's forward distances, -/
theorem s1_last (c : Dev nD) (t : Fin cfg0.N) (h7 : t.val % 8 = 7) :
    (outsAt0 m c t.val t.isLt).2.2.2 (ix2 0 0) = ∑ p : Fin 4096, fwd (cloudP m c) (cloudR m c) (sampleOf t) p := by
  rw [s1_total m c t.val t.isLt, h7, sum_range_tileSum]
  show Ideal.ofBits .f32 0x00000000#32 + _ = _
  rw [Ideal.ofBits_zero_f32, zero_add]

/-- and every lane of the second output's block the sample's coherence. -/
theorem out3_value (c : Dev nD) (t : Fin cfg0.N) (h7 : t.val % 8 = 7) (l : Fin 128) :
    (outsAt0 m c t.val t.isLt).2.1 (ix3 0 0 l) = coh (cloudP m c) (cloudR m c) (sampleOf t) := by
  rw [out3_last m c t h7, Tile.pay3_apply, s1_last m c t h7]
  simp only [s0_last m c t h7]
  rfl

end Cert.Chamfer.Running

end
-- ==== Proof.Arrays.lean ====
/-
  From what each grid point writes back to the two arrays the kernel fills, and from those to the program's two results.

  The first output array [16, 4096, 1] is written back block by block, 512 rows of one sample at every grid point: it ends
  holding every point's forward distance. The second [16, 1, 128] is written back once per sample, after the sample's
  last tile: its row `b` ends holding sample `b`'s coherence in all 128 lanes. After the kernel the first array is
  flattened to [65536] and lane 0 of the second is kept as a [16, 1] column: the specification's two results.
-/
import proofs.«155821_j38989713113333_1_alg».proof.Proof.Gen.KernelIdeal.Frame
import proofs.«155821_j38989713113333_1_alg».proof.Proof.Spec
import proofs.«155821_j38989713113333_1_alg».proof.Proof.Blocks
import proofs.«155821_j38989713113333_1_alg».proof.Proof.Running
import Idealize.ShloMosaic.Lib.Pipeline.Value
import Idealize.ShloMosaic.Lib.StableHlo.Run
import Idealize.ShloMosaic.Lib.ValueIdx

set_option maxRecDepth 16384

noncomputable section

namespace Cert.Chamfer.Arrays

open Idealize.ShloMosaic Idealize.ShloMosaic.TcCoe Idealize.SL.Sem Idealize.ShloMosaic.ValueIdx
open Cert.KernelIdeal Cert.KernelIdeal.Gen Cert.Chamfer Cert.Chamfer.Blocks Cert.Chamfer.Running
open Idealize.ShloMosaic.Pipeline (Dat)

variable (m : (ℓ : Loc nD τ sig) → Buf (Elt Ideal) ℓ) (ρ : Dev nD → PrngReg)

/-! ## The two arrays the kernel writes -/

/-- The first output array, [16, 4096, 1]: the forward distance of point `p` of sample `b` at `(b, p, 0)`. -/
def fwdArr (c : Dev nD) : S16x4096x1.Idx → EReal := fun i => fwd (cloudP m c) (cloudR m c) (i 0) (i 1)

/-- The second output array, [16, 1, 128]: sample `b`'s coherence in every lane of row `b`. -/
def cohArr (c : Dev nD) : S16x1x128.Idx → EReal := fun i => coh (cloudP m c) (cloudR m c) (i 0)

/-- What point `t` writes back into the first output is its block of `fwdArr`: rows `512 (t % 8) …` of sample `t / 8`. -/
theorem flushed2_eq (c : Dev nD) (t : Fin cfg0.N) :
    (dats m 0 c).flushed 2 t = ((cfg0.win 2).blk t).view.read (Elt Ideal) (fwdArr m c) := by
  obtain ⟨-, -, -, -, -, -, e0, e1, e2, -⟩ := idx_facts t
  show (cfg0.win 2).cut (grid0.coords t) ((dats m 0 c).after 2 t) = _
  rw [after0_2]
  funext y
  obtain ⟨y0, j, y2, rfl⟩ : ∃ (y0 : Fin 1) (j : Fin 512) (y2 : Fin 1), y = ix3 y0 j y2 := ⟨y 0, y 1, y 2, eq_ix3 y⟩
  obtain rfl : y0 = 0 := Subsingleton.elim _ _
  obtain rfl : y2 = 0 := Subsingleton.elim _ _
  rw [View.read_apply]
  show (outsAt0 m c t.val t.isLt).1 (ix3 0 j 0) = fwdArr m c (((cfg0.win 2).blk t).view.emb (ix3 (0 : Fin 1) j (0 : Fin 1)))
  have hemb : ((cfg0.win 2).blk t).view.emb (ix3 (0 : Fin 1) j (0 : Fin 1)) = ix3 (sampleOf t) (tile (tileOf t) j) (0 : Fin 1) := by
    funext a; apply Fin.ext
    match a with
    | ⟨0, _⟩ => show win0_2.index t (0 : Fin 3) * 1 + 1 * 0 = t.val / 8; omega
    | ⟨1, _⟩ => show win0_2.index t (1 : Fin 3) * 512 + 1 * j.val = 512 * (t.val % 8) + j.val; omega
    | ⟨2, _⟩ => show win0_2.index t (2 : Fin 3) * 1 + 1 * 0 = 0; omega
  rw [hemb, out2_value]
  rfl

/-- An index of the first output array is in point `t`'s block iff each coordinate is in the block's range. -/
theorem mem_blk2 (t : Fin cfg0.N) (i : S16x4096x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v2_0).slice (win0_2.rect t)).set ↔ _
  rw [View.set_slice_whole, Rect.mem_set_unit]
  exact Iff.rfl

/-- Row `p` of sample `b` is written back by point `8 b + p / 512`. -/
theorem cover2 (i : S16x4096x1.Idx) : ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 1 := (i 2).isLt
  have hN : cfg0.N = 128 := N_0
  have hlt : 8 * (i 0).val + (i 1).val / 512 < cfg0.N := by rw [hN]; omega
  refine ⟨⟨8 * (i 0).val + (i 1).val / 512, hlt⟩, flush0_2 _, ?_⟩
  rw [mem_blk2]
  obtain ⟨-, -, -, -, -, -, e0, e1, e2, -⟩ := idx_facts ⟨8 * (i 0).val + (i 1).val / 512, hlt⟩
  have tv : (⟨8 * (i 0).val + (i 1).val / 512, hlt⟩ : Fin cfg0.N).val = 8 * (i 0).val + (i 1).val / 512 := rfl
  rw [tv] at e0 e1
  intro a
  match a with
  | ⟨0, _⟩ =>
    show win0_2.index ⟨8 * (i 0).val + (i 1).val / 512, hlt⟩ (0 : Fin 3) * 1 ≤ (i 0).val ∧ (i 0).val < win0_2.index ⟨8 * (i 0).val + (i 1).val / 512, hlt⟩ (0 : Fin 3) * 1 + 1
    omega
  | ⟨1, _⟩ =>
    show win0_2.index ⟨8 * (i 0).val + (i 1).val / 512, hlt⟩ (1 : Fin 3) * 512 ≤ (i 1).val ∧ (i 1).val < win0_2.index ⟨8 * (i 0).val + (i 1).val / 512, hlt⟩ (1 : Fin 3) * 512 + 512
    omega
  | ⟨2, _⟩ =>
    show win0_2.index ⟨8 * (i 0).val + (i 1).val / 512, hlt⟩ (2 : Fin 3) * 1 ≤ (i 2).val ∧ (i 2).val < win0_2.index ⟨8 * (i 0).val + (i 1).val / 512, hlt⟩ (2 : Fin 3) * 1 + 1
    omega

/-- So the first output array ends holding the forward distances. -/
theorem final2 (c : Dev nD) : (dats m 0 c).arrAt 2 cfg0.N = fwdArr m c :=
  (dats m 0 c).arrAt_eq_of_cover 2 (fwdArr m c) (fun t _ => flushed2_eq m c t) cover2

/-- The second output is written back after a sample's last point only, and then holds the sample's coherence in every lane. -/
theorem flushed3_eq (c : Dev nD) (t : Fin cfg0.N) (hf : (cfg0.win 3).flush t = true) :
    (dats m 0 c).flushed 3 t = ((cfg0.win 3).blk t).view.read (Elt Ideal) (cohArr m c) := by
  have h7 : t.val % 8 = 7 := (flush0_3 t).mp hf
  obtain ⟨-, -, -, -, -, -, -, -, -, e0, e1, e2⟩ := idx_facts t
  show (cfg0.win 3).cut (grid0.coords t) ((dats m 0 c).after 3 t) = _
  rw [after0_3]
  funext y
  obtain ⟨y0, y1, l, rfl⟩ : ∃ (y0 : Fin 1) (y1 : Fin 1) (l : Fin 128), y = ix3 y0 y1 l := ⟨y 0, y 1, y 2, eq_ix3 y⟩
  obtain rfl : y0 = 0 := Subsingleton.elim _ _
  obtain rfl : y1 = 0 := Subsingleton.elim _ _
  rw [View.read_apply]
  show (outsAt0 m c t.val t.isLt).2.1 (ix3 0 0 l) = cohArr m c (((cfg0.win 3).blk t).view.emb (ix3 (0 : Fin 1) (0 : Fin 1) l))
  rw [out3_value m c t h7]
  show coh _ _ (sampleOf t) = coh _ _ ((((cfg0.win 3).blk t).view.emb (ix3 (0 : Fin 1) (0 : Fin 1) l)) 0)
  congr 1
  apply Fin.ext
  show t.val / 8 = win0_3.index t (0 : Fin 3) * 1 + 1 * 0
  omega

theorem mem_blk3 (t : Fin cfg0.N) (i : S16x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v2_1).slice (win0_3.rect t)).set ↔ _
  rw [View.set_slice_whole, Rect.mem_set_unit]
  exact Iff.rfl

/-- Row `b` is written back by point `8 b + 7`. -/
theorem cover3 (i : S16x1x128.Idx) : ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 128 := (i 2).isLt
  have hN : cfg0.N = 128 := N_0
  have hlt : 8 * (i 0).val + 7 < cfg0.N := by rw [hN]; omega
  refine ⟨⟨8 * (i 0).val + 7, hlt⟩, (flush0_3 _).mpr (by show (8 * (i 0).val + 7) % 8 = 7; omega), ?_⟩
  rw [mem_blk3]
  obtain ⟨-, -, -, -, -, -, -, -, -, e0, e1, e2⟩ := idx_facts ⟨8 * (i 0).val + 7, hlt⟩
  have tv : (⟨8 * (i 0).val + 7, hlt⟩ : Fin cfg0.N).val = 8 * (i 0).val + 7 := rfl
  rw [tv] at e0
  intro a
  match a with
  | ⟨0, _⟩ =>
    show win0_3.index ⟨8 * (i 0).val + 7, hlt⟩ (0 : Fin 3) * 1 ≤ (i 0).val ∧ (i 0).val < win0_3.index ⟨8 * (i 0).val + 7, hlt⟩ (0 : Fin 3) * 1 + 1
    omega
  | ⟨1, _⟩ =>
    show win0_3.index ⟨8 * (i 0).val + 7, hlt⟩ (1 : Fin 3) * 1 ≤ (i 1).val ∧ (i 1).val < win0_3.index ⟨8 * (i 0).val + 7, hlt⟩ (1 : Fin 3) * 1 + 1
    omega
  | ⟨2, _⟩ =>
    show win0_3.index ⟨8 * (i 0).val + 7, hlt⟩ (2 : Fin 3) * 128 ≤ (i 2).val ∧ (i 2).val < win0_3.index ⟨8 * (i 0).val + 7, hlt⟩ (2 : Fin 3) * 128 + 128
    omega

/-- So the second output array ends holding each sample's coherence along its row. -/
theorem final3 (c : Dev nD) : (dats m 0 c).arrAt 3 cfg0.N = cohArr m c :=
  (dats m 0 c).arrAt_eq_of_cover 3 (cohArr m c) (flushed3_eq m c) cover3

/-! ## The program's two results: the host operations after the kernel -/

theorem wa2 (c : Dev nD) : Pipeline.withArrays (cfgs 0).spec c (V0 m c) (fun w => (dats m 0 c).arrAt w (cfgs 0).N) (Proc.tc.devRef main_v2_0)
    = (dats m 0 c).arrAt 2 cfg0.N :=
  Pipeline.withArrays_arr spec0 launch0.win.arr_inj c (V0 m c) (fun w => (dats m 0 c).arrAt w cfg0.N) 2

theorem wa3 (c : Dev nD) : Pipeline.withArrays (cfgs 0).spec c (V0 m c) (fun w => (dats m 0 c).arrAt w (cfgs 0).N) (Proc.tc.devRef main_v2_1)
    = (dats m 0 c).arrAt 3 cfg0.N :=
  Pipeline.withArrays_arr spec0 launch0.win.arr_inj c (V0 m c) (fun w => (dats m 0 c).arrAt w cfg0.N) 3

/-- The second result: the first output array flattened to [65536]. -/
theorem tail_v3 (c : Dev nD) : Pipeline.afterTail₀ cfgs (dats m) 0 (V0 m) [hostOps1] c main_v3
    = shapeCast S65536 ((dats m 0 c).arrAt 2 cfg0.N) Facts₀.shapeCasts_S16x4096x1_S65536 := by
  unfold Pipeline.afterTail₀
  show StableHlo.after hostOps1 _ (Proc.devRef .tc main_v3) = _
  after_results
  rw [wa2]
  rfl

/-- The first result: lane 0 of every row of the second output array, as a [16, 1] column. -/
theorem tail_v5 (c : Dev nD) : Pipeline.afterTail₀ cfgs (dats m) 0 (V0 m) [hostOps1] c main_v5
    = shapeCast S16x1 (extractStridedSlice S16x1x1 ![0, 0, 0] ((dats m 0 c).arrAt 3 cfg0.N) Facts₀.slices_S16x1x128_S16x1x1_0_0_0) Facts₀.shapeCasts_S16x1x1_S16x1 := by
  unfold Pipeline.afterTail₀
  show StableHlo.after hostOps1 _ (Proc.devRef .tc main_v5) = _
  after_results
  rw [wa3]
  rfl

/-- Entry `i` of the flattened array is the forward distance of point `i % 4096` of sample `i / 4096`. -/
theorem result_spatial (c : Dev nD) :
    Pipeline.afterTail₀ cfgs (dats m) 0 (V0 m) [hostOps1] c main_v3 = spatialOut (cloudP m c) (cloudR m c) := by
  rw [tail_v3, final2]
  funext i
  have h0 : (i 0).val < 65536 := (i 0).isLt
  refine (shapeCast_apply (fwdArr m c) _ i
    (ix3 (⟨(i 0).val / 4096, by omega⟩ : Fin 16) (⟨(i 0).val % 4096, Nat.mod_lt _ (by decide)⟩ : Fin 4096) (0 : Fin 1)) ?_).trans rfl
  rw [Shape.rowMajor_val_three, Shape.rowMajor_val_one]
  show ((i 0).val / 4096 * 4096 + (i 0).val % 4096) * 1 + 0 = (i 0).val
  omega

/-- Row `b` of the column is sample `b`'s coherence. -/
theorem result_scalar (c : Dev nD) :
    Pipeline.afterTail₀ cfgs (dats m) 0 (V0 m) [hostOps1] c main_v5 = scalarOut (cloudP m c) (cloudR m c) := by
  rw [tail_v5, final3]
  funext i
  have h1 : (i 1).val < 1 := (i 1).isLt
  refine (shapeCast_apply _ _ i (ix3 (i 0) (0 : Fin 1) (0 : Fin 1)) ?_).trans ?_
  · rw [Shape.rowMajor_val_three, Shape.rowMajor_val_two]
    show ((i 0).val * 1 + 0) * 1 + 0 = (i 0).val * 1 + (i 1).val
    omega
  · refine (extractStridedSlice_apply _ (cohArr m c) _ _ (ix3 (i 0) (0 : Fin 1) (0 : Fin 128)) ?_).trans rfl
    intro a
    match a with
    | ⟨0, _⟩ => exact (Nat.zero_add _).symm
    | ⟨1, _⟩ => rfl
    | ⟨2, _⟩ => rfl

/-! ## The run, read -/

/-- Every weakly fair execution of the idealized kernel program terminates with its two results at the specification of the
    two launched clouds, and the arguments unchanged. -/
theorem run : θ_run defs (onTc (τ := τ) (main (F := Ideal))) ⟨m, fun _ => 0, ρ⟩ fun r => ∀ c : Dev nD,
      r.2.mem ((c.tc : Thread nD τ).loc main_v5) = scalarOut (cloudP m c) (cloudR m c)
      ∧ r.2.mem ((c.tc : Thread nD τ).loc main_v3) = spatialOut (cloudP m c) (cloudR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (result_scalar m c),
     ((h c).2 main_v3 (Pipeline.mem_restRefs_of main_v3 (by decide) (by decide))).trans (result_spatial m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Chamfer.Arrays

end
-- ==== Proof.lean ====
/-
  Chamfer coherence of two point clouds, kernel against reference, over the extended reals.

  Both programs take two clouds of 16 samples × 4096 points in three coordinates (rows of a [65536, 3] array) and return,
  per sample, `(mean_p min_q d(p, q) + mean_q min_p d(p, q)) / 2` and, per point `p`, `min_q d(p, q)`, where
  `d(p, q) = √(max ((|x_p|² + |y_q|²) − 2 ⟨x_p, y_q⟩) 0)` (Proof/Spec.lean).

  The reference computes this directly (Proof/RefIsSpec.lean). The kernel walks a 16 × 8 grid: point `(b, k)` forms the
  512 × 4096 distance tile of tile `k` of sample `b`'s first cloud against all of its second cloud
  (Proof/TileValue.lean, Proof/Blocks.lean), writes the tile's row minima — the forward distances of those 512 points —,
  adds their sum to a carried total and folds the tile's column minima into a carried minimum; after the sample's eighth
  tile the total is the sum of all forward distances and the carried minimum is the backward distance of every point
  (Proof/Regroup.lean, Proof/Running.lean: a sum of tile sums is the sum, a minimum of tile minima the minimum — laws of
  addition and of the order alone, so nothing here needs the inputs finite), and the point writes the coherence
  (Proof/Arrays.lean, which also reads the two results off the arrays through the reshapes and the slice after the kernel).
  Every float literal is the same word on both sides; only the zero a sum starts from is evaluated.
-/
import proofs.«155821_j38989713113333_1_alg».proof.Defs
import proofs.«155821_j38989713113333_1_alg».proof.Proof.Gen.Kernel
import proofs.«155821_j38989713113333_1_alg».proof.Proof.Gen.Kernel.Skeleton
import proofs.«155821_j38989713113333_1_alg».proof.Proof.Gen.Kernel.Launch
import proofs.«155821_j38989713113333_1_alg».proof.Proof.Gen.Kernel.Points
import proofs.«155821_j38989713113333_1_alg».proof.Proof.Gen.Kernel.Frame
import proofs.«155821_j38989713113333_1_alg».proof.Proof.Gen.KernelIdeal
import proofs.«155821_j38989713113333_1_alg».proof.Proof.Gen.KernelIdeal.Skeleton
import proofs.«155821_j38989713113333_1_alg».proof.Proof.Gen.KernelIdeal.Launch
import proofs.«155821_j38989713113333_1_alg».proof.Proof.Gen.KernelIdeal.Points
import proofs.«155821_j38989713113333_1_alg».proof.Proof.Gen.KernelIdeal.Frame
import proofs.«155821_j38989713113333_1_alg».proof.Proof.Gen.ReferenceIdeal
import proofs.«155821_j38989713113333_1_alg».proof.Proof.Gen.Pre_finite_inputs
import proofs.«155821_j38989713113333_1_alg».proof.Proof.Gen.ReferenceIdeal.Read
import proofs.«155821_j38989713113333_1_alg».proof.Proof.RefIsSpec
import proofs.«155821_j38989713113333_1_alg».proof.Proof.Arrays
import Idealize.ShloMosaic.Adequacy
import Idealize.ShloMosaic.Init

noncomputable section

namespace Cert.Proof

open Idealize.ShloMosaic Idealize.SL.Sem Cert.Chamfer

/-- The two kernel programs run, and leave their arguments as they found them. -/
theorem frame_k : Cert.frame_Kernel := fun m ρ _ => Cert.Kernel.Gen.frame m ρ
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Over the extended reals the kernel's two results and the reference's are the coherence and the forward distances of
    the same two clouds. -/
theorem algebraic : Cert.algebraic_KernelIdeal_ReferenceIdeal := by
  intro m ρ m' ρ' _ hagree
  refine ⟨fun c => scalarOut (Blocks.cloudP m c) (Blocks.cloudR m c), fun c => spatialOut (Blocks.cloudP m c) (Blocks.cloudR m c),
    Arrays.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v29_eq _ _).trans ((Ref.ref_scalar _ _).trans ?_))
    rw [(hagree c).1, (hagree c).2.1]
  · refine (h c).2.1.trans ((Cert.ReferenceIdeal.Read.val_main_v30_eq _ _).trans ((Ref.ref_spatial _ _).trans ?_))
    rw [(hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
